-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x8192 .f32) (main_arg1 : FVec F S8192x128 .f32) (main_arg2 : FVec F S128x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S1x128 : Shape := ⟨2, ![1, 128]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S128x128, .f32⟩
  | .hbm, ⟨8, _⟩ => ⟨S1x128, .f32⟩
  | .hbm, ⟨9, _⟩ => ⟨S8192x128, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S128x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bcast_S8192x1_S8192x128_0_1 : S8192x1.BroadcastsInDim S8192x128 (![0, 1] : Fin 2 → Fin S8192x128.rank)
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x128, .f32⟩
  | .hbm, ⟨32, _⟩ => ⟨S128x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_cst : Ref sig .tc := ⟨.hbm, 37, rfl⟩
abbrev main_call2_v0 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelR0.lean ====
/-
  The degree pass (the first of the program's two grids), at any float instance and at any contents `V` of the
  core's buffers when the grid is entered.

  The grid has 32 points; point `t` is handed rows `256 t … 256 t + 255` of the adjacency (all 8192 columns) and
  leaves, in the 256 × 1 block of the degree column at the same rows, one value per row computed from that row
  alone. Stated here: what the body leaves in the block as a function of the rows it was handed, the body's
  triple, and the per-point obligation of the pipeline that fetches the rows and writes the blocks back.
-/
import proofs.«165293_j27951647162470_2_alg».proof.Proof.Gen.Kernel.Launch
import proofs.«165293_j27951647162470_2_alg».proof.Proof.Gen.Kernel.Skeleton
import proofs.«165293_j27951647162470_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency rows are in the staging buffer at every point (they are fetched at every point, the window is
    never cut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 8192 block and the whole 256 × 1 block, as the body's load and store address them. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the degree block, from the rows it was handed: its one store, of the row-wise value. -/
def out0_1 (x0 : Vec F S256x8192 .f32) : Vec F S256x1 .f32 :=
  View.canon [⟨rOut0, k0_pay1 (View.ld x0 rIn0)⟩]

/-- The one store covers the block. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers, the rows at contents `x0` and the degree block at anything: it runs, keeps
    the rows and leaves `out0_1 x0` in the block. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the grid finds them; after the body at point `t` the rows
    still in their buffer and the degree block at `out0_1` of the rows; nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelR1Base.lean ====
/-
  The aggregation pass (the second grid, 8 × 8 points), at any float instance: what its three runs share.

  Point `t = 8 i + j` is handed the 1024 × 1024 tile `(i, j)` of the adjacency, rows `1024 j …` of the scaled
  features (the tile's columns), rows `1024 i …` of the scaled features and of the degree column (the tile's
  rows), the transposed weights and the bias row; it keeps a 1024 × 128 accumulator between points. At `j = 0`
  the accumulator is reset to the tile rows' own scaled features; at every point the tile times its column block
  is added; at `j = 7` the output block `i` is stored from the accumulator. The two conditions are decided over
  the grid in closed form here, and the points at which the output block is idle are listed.
-/
import proofs.«165293_j27951647162470_2_alg».proof.Proof.Gen.Kernel.Launch
import proofs.«165293_j27951647162470_2_alg».proof.Proof.Gen.Kernel.Skeleton
import proofs.«165293_j27951647162470_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, fetched there or not (where it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions -/

/-- `j = 0`, as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `j = 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output block is idle -/

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging buffers at a point, the accumulator -/

abbrev VO1_6 : View sig .tc .vmem S1024x128 .f32 := (Memref.whole cc1_stg6_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1 : Memref sig .tc .vmem S1024x128 .f32 := Memref.whole cc1_scratch0
abbrev VS1 : View sig .tc .vmem S1024x128 .f32 := scM1.view

/-- What the pipeline keeps for the body between points, with the accumulator as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Fr

end
-- ==== Proof.KernelR1RunA.lean ====
/-
  The aggregation pass, the run of the body at the points with `j = 0` (the accumulator is reset, then the first
  tile's product is added; the output block is not touched): the accumulator is taken at anything.
-/
import proofs.«165293_j27951647162470_2_alg».proof.Proof.KernelR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x128 .f32) (x2 : Vec F S1024x128 .f32) (x3 : Vec F S1024x1 .f32) (x4 : Vec F S128x128 .f32) (x5 : Vec F S1x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    iexists _; iexact HS

end Cert.Kernel.Fr

end
-- ==== Proof.KernelR1RunB.lean ====
/-
  The aggregation pass, the run of the body at the points with `0 < j < 7` (the tile's product is added to the
  accumulator, taken at what the point before left; the output block is not touched).
-/
import proofs.«165293_j27951647162470_2_alg».proof.Proof.KernelR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    iexists _; iexact HS

end Cert.Kernel.Fr

end
-- ==== Proof.KernelR1RunC.lean ====
/-
  The aggregation pass, the run of the body at the points with `j = 7` (the last tile's product is added to the
  accumulator, taken at what the point before left, and the output block is stored from it).
-/
import proofs.«165293_j27951647162470_2_alg».proof.Proof.KernelR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.Kernel.Fr

end
-- ==== Proof.KernelR1.lean ====
/-
  The aggregation pass at any float instance and any entry contents `V`: what the accumulator and the output
  block's buffer hold after each point, by recursion on the point; the pipeline's proof data; the per-point
  obligation.

  After point `t = 8 i + j` the accumulator holds what the run of the point's case leaves in it — at `j = 0` a
  function of the point's blocks alone, at `j > 0` of the blocks and of what point `t - 1` left —, and at
  `j = 7` the output block's buffer holds what that run stores from the accumulator. Between points the
  pipeline keeps the accumulator at exactly those contents.
-/
import proofs.«165293_j27951647162470_2_alg».proof.Proof.KernelR1RunA
import proofs.«165293_j27951647162470_2_alg».proof.Proof.KernelR1RunB
import proofs.«165293_j27951647162470_2_alg».proof.Proof.KernelR1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's buffers and blocks -/

abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)
abbrev runB (c : Dev nD) (t : Fin cfg1.N) (h0 : ¬t.val % 8 = 0) (h1 : ¬t.val % 8 = 7) (xs : Vec F S1024x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs
abbrev runC (c : Dev nD) (t : Fin cfg1.N) (h0 : ¬t.val % 8 = 0) (h1 : t.val % 8 = 7) (xs : Vec F S1024x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs

/-- Where the output block is idle nothing is stored: a placeholder nothing reads. -/
def idle6 : Vec F S1024x128 .f32 := VO1_6.read (Elt F) (VO1_6.writes (Elt F) VO1_6.junk [])

/-- Each run's accumulator stores tile the accumulator, so they cover it. -/
theorem scoverA (c : Dev nD) (t : Fin cfg1.N) (h0 : t.val % 8 = 0) (y : S1024x128.Idx) : ∃ pc ∈ (runA V c t h0).2.1, y ∈ pc.1.set :=
  View.cover_of_tiledL (runA V c t h0).2.1 S1024x128.size (by sl_kernel_rfl) y
theorem scoverB (c : Dev nD) (t : Fin cfg1.N) (h0 : ¬t.val % 8 = 0) (h1 : ¬t.val % 8 = 7) (xs : Vec F S1024x128 .f32) (y : S1024x128.Idx) : ∃ pc ∈ (runB V c t h0 h1 xs).2.1, y ∈ pc.1.set :=
  View.cover_of_tiledL (runB V c t h0 h1 xs).2.1 S1024x128.size (by sl_kernel_rfl) y
theorem scoverC (c : Dev nD) (t : Fin cfg1.N) (h0 : ¬t.val % 8 = 0) (h1 : t.val % 8 = 7) (xs : Vec F S1024x128 .f32) (y : S1024x128.Idx) : ∃ pc ∈ (runC V c t h0 h1 xs).2.1, y ∈ pc.1.set :=
  View.cover_of_tiledL (runC V c t h0 h1 xs).2.1 S1024x128.size (by sl_kernel_rfl) y
/-- At `j = 7` the output store covers the block's buffer. -/
theorem coverC (c : Dev nD) (t : Fin cfg1.N) (h0 : ¬t.val % 8 = 0) (h1 : t.val % 8 = 7) (xs : Vec F S1024x128 .f32) (y : S1024x128.Idx) : ∃ pc ∈ (runC V c t h0 h1 xs).1, y ∈ pc.1.set :=
  View.cover_of_tiledL (runC V c t h0 h1 xs).1 S1024x128.size (by sl_kernel_rfl) y

/-- What each run leaves in the accumulator, and at `j = 7` in the output block's buffer: its stores read back. -/
def scrA (c : Dev nD) (t : Fin cfg1.N) (h0 : t.val % 8 = 0) : Vec F S1024x128 .f32 :=
  VS1.read (Elt F) (VS1.writes (Elt F) VS1.junk (runA V c t h0).2.1)
def scrB (c : Dev nD) (t : Fin cfg1.N) (h0 : ¬t.val % 8 = 0) (h1 : ¬t.val % 8 = 7) (xs : Vec F S1024x128 .f32) : Vec F S1024x128 .f32 :=
  VS1.read (Elt F) (VS1.writes (Elt F) VS1.junk (runB V c t h0 h1 xs).2.1)
def scrC (c : Dev nD) (t : Fin cfg1.N) (h0 : ¬t.val % 8 = 0) (h1 : t.val % 8 = 7) (xs : Vec F S1024x128 .f32) : Vec F S1024x128 .f32 :=
  VS1.read (Elt F) (VS1.writes (Elt F) VS1.junk (runC V c t h0 h1 xs).2.1)
def outC (c : Dev nD) (t : Fin cfg1.N) (h0 : ¬t.val % 8 = 0) (h1 : t.val % 8 = 7) (xs : Vec F S1024x128 .f32) : Vec F S1024x128 .f32 :=
  VO1_6.read (Elt F) (VO1_6.writes (Elt F) VO1_6.junk (runC V c t h0 h1 xs).1)

/-! ## The accumulation -/

/-- What the output block's buffer and the accumulator hold after the body at position `n`: the case the closed
    forms select, over what position `n - 1` left in the accumulator. -/
def outsAt1 (c : Dev nD) : (n : ℕ) → n < cfg1.N → Vec F S1024x128 .f32 × Vec F S1024x128 .f32
  | 0, hn => (idle6, scrA V c ⟨0, hn⟩ (Nat.zero_mod _))
  | n + 1, hn =>
    if h0 : (n + 1) % 8 = 0 then (idle6, scrA V c ⟨n + 1, hn⟩ h0)
    else if h1 : (n + 1) % 8 = 7 then
      (outC V c ⟨n + 1, hn⟩ h0 h1 (outsAt1 c n (Nat.lt_of_succ_lt hn)).2, scrC V c ⟨n + 1, hn⟩ h0 h1 (outsAt1 c n (Nat.lt_of_succ_lt hn)).2)
    else (idle6, scrB V c ⟨n + 1, hn⟩ h0 h1 (outsAt1 c n (Nat.lt_of_succ_lt hn)).2)

theorem outsAt1_A (c : Dev nD) (t : Fin cfg1.N) (h0 : t.val % 8 = 0) :
    outsAt1 V c t.val t.isLt = (idle6, scrA V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle6, scrB V c t h0 h1 (outsAt1 V c (t.val - 1) (Nat.lt_of_le_of_lt (Nat.sub_le _ _) t.isLt)).2) := by
  obtain ⟨n, hn⟩ := t
  cases n with
  | zero => exact (by exfalso; exact h0 (Nat.zero_mod _))
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2, scrC V c t h0 h1 (outsAt1 V c (t.val - 1) (Nat.lt_of_le_of_lt (Nat.sub_le _ _) t.isLt)).2) := by
  obtain ⟨n, hn⟩ := t
  cases n with
  | zero => exact (by exfalso; exact h0 (Nat.zero_mod _))
  | succ n => exact (dif_neg h0).trans ((dif_pos h1).trans rfl)

/-- What the pipeline keeps between points: before the first point the accumulator at anything; afterwards at what
    the point before left in it. The other grid's staging buffers ride along at some contents. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- On core `c`: the arrays as the grid finds them; after the body at point `t` each input's buffer at its block
    and the output block's at `outsAt1`; between points the accumulator at `outsAt1`'s second component. The
    scaled features are read through two windows, each holding half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- No input window is ever idle. -/
theorem liveAt1_in (w : Fin 7) (hw : w ≠ 6) (t : Fin cfg1.N) : cfg1.idle w (grid1.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, h => exact absurd rfl h

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' buffers hold their blocks; the closed forms say which case the point is in;
    the accumulator is handed over at what the point before left and taken back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold scrA; (try dsimp only)
    by_cases hz : t.val = 0
    · rw [PhiS1_castSucc V c t, PhiS1_zero V c _ _ hz, PhiA1_eq]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold outC scrC; (try dsimp only)
      rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC V c t h0 h1 _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold scrB; (try dsimp only)
      rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the grid is entered with is what the pipeline keeps before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.Kernel.Fr

end
-- ==== Proof.KernelR1Arr.lean ====
/-
  The aggregation pass reads the scaled features through two windows (the tile's column block and its row block),
  so the one array behind them is held half by each. Stated here: the core's buffers that no grid scopes, each held
  whole, are the seven windows' arrays at the shares the proof data names beside the buffers no window reads; and
  back, when the pass is over, with the output array at its new contents.
-/
import proofs.«165293_j27951647162470_2_alg».proof.Proof.KernelR1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The seven windows' arrays, one by one, at the shares the proof data names. -/
theorem arrays1_eq (c : Dev nD) (G : (w : Fin cfg1.W) → Buf (Elt F) ((cfg1.win w).arr.view.loc (c : Thread nD τ))) :
    ((dat1 V c).arrays G : sProp 𝕄) = iprop((((c : Thread nD τ).loc main_arg0) ↦{fullShare} G 0) ∗ (((c : Thread nD τ).loc main_v2) ↦{fullShare.left} G 1) ∗ (((c : Thread nD τ).loc main_v2) ↦{fullShare.right} G 2)
      ∗ (((c : Thread nD τ).loc main_v0) ↦{fullShare} G 3) ∗ (((c : Thread nD τ).loc main_v3) ↦{fullShare} G 4) ∗ (((c : Thread nD τ).loc main_v4) ↦{fullShare} G 5) ∗ (((c : Thread nD τ).loc main_v5) ↦{fullShare} G 6)) := by
  have e : ∀ w : Fin cfg1.W, (((cfg1.win w).arr.view.loc (c : Thread nD τ)) ↦[(cfg1.win w).arr.view.set]{(dat1 V c).share w} G w : sProp 𝕄)
      = (((cfg1.win w).arr.view.loc (c : Thread nD τ)) ↦{(dat1 V c).share w} G w) := fun w => by rw [(arr_whole1 w).set_eq_univ]
  unfold Dat.arrays
  simp only [e]
  rw [bigSep_W1]
  rfl

/-- The six distinct buffers behind the seven windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v2) ↦{fullShare} V' main_v2) ∗ (((c : Thread nD τ).loc main_v0) ↦{fullShare} V' main_v0)
        ∗ (((c : Thread nD τ).loc main_v3) ↦{fullShare} V' main_v3) ∗ (((c : Thread nD τ).loc main_v4) ↦{fullShare} V' main_v4) ∗ (((c : Thread nD τ).loc main_v5) ↦{fullShare} V' main_v5)) := by
  unfold Pipeline.arrBufs
  exact bigSep_eq_bigSepL_of_eq [main_arg0, main_v2, main_v0, main_v3, main_v4, main_v5] (by decide) (by decide) _

theorem unscopedBufs_split1 (c : Dev nD) (V' : (b : Ref sig .tc) → Buf (Elt F) ((c : Thread nD τ).loc b)) :
    (unscopedBufs c V' : sProp 𝕄) = iprop((Pipeline.arrBufs spec1 c V' : sProp 𝕄) ∗ Pipeline.unscopedRest spec1 c V') :=
  Pipeline.unscopedBufs_split₀ cfgs (1 : Fin 2) winFacts₀1.arr_unscoped c V'

/-- Entering the pass: the features' array is split between its two windows. -/
theorem arrays_of_unscopedBufs1 (c : Dev nD) :
    (unscopedBufs c (V c) : sProp 𝕄) ⊢ iprop((dat1 V c).arrays ((dat1 V c).arrAt · 0) ∗ Pipeline.unscopedRest spec1 c (V c)) := by
  rw [unscopedBufs_split1 c (V c)]
  refine sep_mono ?_ .rfl
  rw [arrBufs1_eq, arrays1_eq]
  iintro ⟨H0, H2, Hv0, Hv3, Hv4, Hv5⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  isplitl [Hv0]; · iexact Hv0
  isplitl [Hv3]; · iexact Hv3
  isplitl [Hv4]; · iexact Hv4
  iexact Hv5

/-- Leaving the pass: the two halves are joined again, every array at the contents `V'` names for it. -/
theorem unscopedBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1 c V']
  refine sep_mono ?_ (Entails.of_eq ?_)
  · rw [arrBufs1_eq, arrays1_eq, hG 0, hG 1, hG 2, hG 3, hG 4, hG 5, hG 6]
    iintro ⟨H0, H2l, H2r, Hv0, Hv3, Hv4, Hv5⟩
    isplitl [H0]; · iexact H0
    isplitl [H2l H2r]
    · iapply (pointsTo_share (PosShare.mem_left_op_right fullShare)).2
      isplitl [H2l]; · iexact H2l
      iexact H2r
    isplitl [Hv0]; · iexact Hv0
    isplitl [Hv3]; · iexact Hv3
    isplitl [Hv4]; · iexact Hv4
    iexact Hv5
  · unfold Pipeline.unscopedRest
    exact bigSep_congr fun b hb => by rw [hrest b (Finset.mem_sdiff.mp hb).2]

end Cert.Kernel.Fr

end
-- ==== Proof.KernelRun.lean ====
/-
  The whole program at any float instance: the degree pass, four host operations (the degree column broadcast over
  the feature axis, its product with the features, the weights' transpose, the bias as a row), the aggregation
  pass. The contents of the core's unscoped buffers are followed through the three segments — after the degree pass
  the degree column at what its write-backs leave, after the host operations their results, after the aggregation
  pass the output array at what its write-backs leave — and every weakly fair execution is shown to terminate with
  every unscoped buffer at the last of these.
-/
import proofs.«165293_j27951647162470_2_alg».proof.Proof.KernelR0
import proofs.«165293_j27951647162470_2_alg».proof.Proof.KernelR1Arr
import proofs.«165293_j27951647162470_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the degree pass: the degree column at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the aggregation pass: the output array at what the write-backs leave, every other buffer as entered. -/
def W3 (c : Dev nD) : Valuation τ sig (Elt F) :=
  Function.update (W2 m c) (Proc.devRef .tc main_v5) ((dat1 (V2 m) c).arrAt 6 cfg1.N)
theorem W3_out (c : Dev nD) : W3 m c (Proc.devRef .tc main_v5) = (dat1 (V2 m) c).arrAt 6 cfg1.N := by
  unfold W3; exact Function.update_self _ _ _
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m c b

theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_arg0 (by decide)).symm
  | ⟨1, _⟩ => exact (((dat1 (V2 m) c).arrAt_in 1 rfl _).trans (A_eq1 (V2 m) c 1)).trans (W3_of_ne m c main_v2 (by decide)).symm
  | ⟨2, _⟩ => exact (((dat1 (V2 m) c).arrAt_in 2 rfl _).trans (A_eq1 (V2 m) c 2)).trans (W3_of_ne m c main_v2 (by decide)).symm
  | ⟨3, _⟩ => exact (((dat1 (V2 m) c).arrAt_in 3 rfl _).trans (A_eq1 (V2 m) c 3)).trans (W3_of_ne m c main_v0 (by decide)).symm
  | ⟨4, _⟩ => exact (((dat1 (V2 m) c).arrAt_in 4 rfl _).trans (A_eq1 (V2 m) c 4)).trans (W3_of_ne m c main_v3 (by decide)).symm
  | ⟨5, _⟩ => exact (((dat1 (V2 m) c).arrAt_in 5 rfl _).trans (A_eq1 (V2 m) c 5)).trans (W3_of_ne m c main_v4 (by decide)).symm
  | ⟨6, _⟩ => exact (W3_out m c).symm
theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

/-! ### The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h

theorem W3_main_arg0 (c : Dev nD) : W3 m c (Proc.devRef .tc main_arg0) = m ((c : Thread nD τ).loc main_arg0) :=
  (W3_of_ne m c main_arg0 (by decide)).trans <| (W2_of m c main_arg0 (by decide)).trans <|
    (W1_arr m c 0).trans (((dat0 (V0 m) c).arrAt_in 0 rfl _).trans (A_eq0 (V0 m) c 0))
theorem W3_main_arg1 (c : Dev nD) : W3 m c (Proc.devRef .tc main_arg1) = m ((c : Thread nD τ).loc main_arg1) :=
  (W3_of_ne m c main_arg1 (by decide)).trans <| (W2_of m c main_arg1 (by decide)).trans <| W1_of_ne m c main_arg1 (by decide)
theorem W3_main_arg2 (c : Dev nD) : W3 m c (Proc.devRef .tc main_arg2) = m ((c : Thread nD τ).loc main_arg2) :=
  (W3_of_ne m c main_arg2 (by decide)).trans <| (W2_of m c main_arg2 (by decide)).trans <| W1_of_ne m c main_arg2 (by decide)
theorem W3_main_arg3 (c : Dev nD) : W3 m c (Proc.devRef .tc main_arg3) = m ((c : Thread nD τ).loc main_arg3) :=
  (W3_of_ne m c main_arg3 (by decide)).trans <| (W2_of m c main_arg3 (by decide)).trans <| W1_of_ne m c main_arg3 (by decide)

/-! ## The proof data family and the thread state -/

abbrev adm' : (p : Fin 2) → (pcfgs (F := F) p).Adm := fun p => (cfgs p).toPCfg_adm
/-- Each pass's proof data at the contents its grid is entered with. -/
def pdats : (p : Fin 2) → (c : Dev nD) → Dat τ (Elt F) Unit ℕ (UR sig nD τ) ℕ (Pipeline.pin (pcfgs (F := F)) adm' p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two passes as segments -/

set_option backward.isDefEq.respectTransparency.types false in
/-- The degree pass over the thread state: entered from every unscoped buffer at launch, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `W2`, left at `W3`; the
    features' array split between its two windows at entry and joined again at exit. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := unscopedBufs_of_arrays1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, and every
    unscoped buffer of every core ends at `W3`: the arguments as launched, the result array at what the aggregation
    pass's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The result array ends at what the aggregation pass's write-backs leave, the arguments as launched. -/
theorem run_out : θ_run defs (onTc (τ := τ) (main (F := F))) ⟨m, fun _ => 0, ρ⟩ (fun r => ∀ c : Dev nD,
      r.2.mem ((c.tc : Thread nD τ).loc main_v5) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_out m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Fr

end
-- ==== Proof.KernelIdealR0.lean ====
/-
  The degree pass (the first of the program's two grids), at any float instance and at any contents `V` of the
  core's buffers when the grid is entered.

  The grid has 32 points; point `t` is handed rows `256 t … 256 t + 255` of the adjacency (all 8192 columns) and
  leaves, in the 256 × 1 block of the degree column at the same rows, one value per row computed from that row
  alone. Stated here: what the body leaves in the block as a function of the rows it was handed, the body's
  triple, and the per-point obligation of the pipeline that fetches the rows and writes the blocks back.
-/
import proofs.«165293_j27951647162470_2_alg».proof.Proof.Gen.KernelIdeal.Launch
import proofs.«165293_j27951647162470_2_alg».proof.Proof.Gen.KernelIdeal.Skeleton
import proofs.«165293_j27951647162470_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency rows are in the staging buffer at every point (they are fetched at every point, the window is
    never cut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 8192 block and the whole 256 × 1 block, as the body's load and store address them. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the degree block, from the rows it was handed: its one store, of the row-wise value. -/
def out0_1 (x0 : Vec F S256x8192 .f32) : Vec F S256x1 .f32 :=
  View.canon [⟨rOut0, k0_pay1 (View.ld x0 rIn0)⟩]

/-- The one store covers the block. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers, the rows at contents `x0` and the degree block at anything: it runs, keeps
    the rows and leaves `out0_1 x0` in the block. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the grid finds them; after the body at point `t` the rows
    still in their buffer and the degree block at `out0_1` of the rows; nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealR1Base.lean ====
/-
  The aggregation pass (the second grid, 8 × 8 points), at any float instance: what its three runs share.

  Point `t = 8 i + j` is handed the 1024 × 1024 tile `(i, j)` of the adjacency, rows `1024 j …` of the scaled
  features (the tile's columns), rows `1024 i …` of the scaled features and of the degree column (the tile's
  rows), the transposed weights and the bias row; it keeps a 1024 × 128 accumulator between points. At `j = 0`
  the accumulator is reset to the tile rows' own scaled features; at every point the tile times its column block
  is added; at `j = 7` the output block `i` is stored from the accumulator. The two conditions are decided over
  the grid in closed form here, and the points at which the output block is idle are listed.
-/
import proofs.«165293_j27951647162470_2_alg».proof.Proof.Gen.KernelIdeal.Launch
import proofs.«165293_j27951647162470_2_alg».proof.Proof.Gen.KernelIdeal.Skeleton
import proofs.«165293_j27951647162470_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, fetched there or not (where it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions -/

/-- `j = 0`, as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `j = 7`, as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output block is idle -/

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging buffers at a point, the accumulator -/

abbrev VO1_6 : View sig .tc .vmem S1024x128 .f32 := (Memref.whole cc1_stg6_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1 : Memref sig .tc .vmem S1024x128 .f32 := Memref.whole cc1_scratch0
abbrev VS1 : View sig .tc .vmem S1024x128 .f32 := scM1.view

/-- What the pipeline keeps for the body between points, with the accumulator as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.KernelIdealR1RunA.lean ====
/-
  The aggregation pass, the run of the body at the points with `j = 0` (the accumulator is reset, then the first
  tile's product is added; the output block is not touched): the accumulator is taken at anything.
-/
import proofs.«165293_j27951647162470_2_alg».proof.Proof.KernelIdealR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x128 .f32) (x2 : Vec F S1024x128 .f32) (x3 : Vec F S1024x1 .f32) (x4 : Vec F S128x128 .f32) (x5 : Vec F S1x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    iexists _; iexact HS

end Cert.KernelIdeal.Fr

end
-- ==== Proof.KernelIdealR1RunB.lean ====
/-
  The aggregation pass, the run of the body at the points with `0 < j < 7` (the tile's product is added to the
  accumulator, taken at what the point before left; the output block is not touched).
-/
import proofs.«165293_j27951647162470_2_alg».proof.Proof.KernelIdealR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    iexists _; iexact HS

end Cert.KernelIdeal.Fr

end
-- ==== Proof.KernelIdealR1RunC.lean ====
/-
  The aggregation pass, the run of the body at the points with `j = 7` (the last tile's product is added to the
  accumulator, taken at what the point before left, and the output block is stored from it).
-/
import proofs.«165293_j27951647162470_2_alg».proof.Proof.KernelIdealR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer (`L6`) and in the accumulator (`LS`), last
    store first, with the body's triple on whole buffers: the six inputs at their contents and handed back as
    they were, the accumulator and the output block as described in the header. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.KernelIdeal.Fr

end
-- ==== Proof.KernelIdealR1.lean ====
/-
  The aggregation pass at any float instance and any entry contents `V`: what the accumulator and the output
  block's buffer hold after each point, by recursion on the point; the pipeline's proof data; the per-point
  obligation.

  After point `t = 8 i + j` the accumulator holds what the run of the point's case leaves in it — at `j = 0` a
  function of the point's blocks alone, at `j > 0` of the blocks and of what point `t - 1` left —, and at
  `j = 7` the output block's buffer holds what that run stores from the accumulator. Between points the
  pipeline keeps the accumulator at exactly those contents.
-/
import proofs.«165293_j27951647162470_2_alg».proof.Proof.KernelIdealR1RunA
import proofs.«165293_j27951647162470_2_alg».proof.Proof.KernelIdealR1RunB
import proofs.«165293_j27951647162470_2_alg».proof.Proof.KernelIdealR1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's buffers and blocks -/

abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)
abbrev runB (c : Dev nD) (t : Fin cfg1.N) (h0 : ¬t.val % 8 = 0) (h1 : ¬t.val % 8 = 7) (xs : Vec F S1024x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs
abbrev runC (c : Dev nD) (t : Fin cfg1.N) (h0 : ¬t.val % 8 = 0) (h1 : t.val % 8 = 7) (xs : Vec F S1024x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs

/-- Where the output block is idle nothing is stored: a placeholder nothing reads. -/
def idle6 : Vec F S1024x128 .f32 := VO1_6.read (Elt F) (VO1_6.writes (Elt F) VO1_6.junk [])

/-- Each run's accumulator stores tile the accumulator, so they cover it. -/
theorem scoverA (c : Dev nD) (t : Fin cfg1.N) (h0 : t.val % 8 = 0) (y : S1024x128.Idx) : ∃ pc ∈ (runA V c t h0).2.1, y ∈ pc.1.set :=
  View.cover_of_tiledL (runA V c t h0).2.1 S1024x128.size (by sl_kernel_rfl) y
theorem scoverB (c : Dev nD) (t : Fin cfg1.N) (h0 : ¬t.val % 8 = 0) (h1 : ¬t.val % 8 = 7) (xs : Vec F S1024x128 .f32) (y : S1024x128.Idx) : ∃ pc ∈ (runB V c t h0 h1 xs).2.1, y ∈ pc.1.set :=
  View.cover_of_tiledL (runB V c t h0 h1 xs).2.1 S1024x128.size (by sl_kernel_rfl) y
theorem scoverC (c : Dev nD) (t : Fin cfg1.N) (h0 : ¬t.val % 8 = 0) (h1 : t.val % 8 = 7) (xs : Vec F S1024x128 .f32) (y : S1024x128.Idx) : ∃ pc ∈ (runC V c t h0 h1 xs).2.1, y ∈ pc.1.set :=
  View.cover_of_tiledL (runC V c t h0 h1 xs).2.1 S1024x128.size (by sl_kernel_rfl) y
/-- At `j = 7` the output store covers the block's buffer. -/
theorem coverC (c : Dev nD) (t : Fin cfg1.N) (h0 : ¬t.val % 8 = 0) (h1 : t.val % 8 = 7) (xs : Vec F S1024x128 .f32) (y : S1024x128.Idx) : ∃ pc ∈ (runC V c t h0 h1 xs).1, y ∈ pc.1.set :=
  View.cover_of_tiledL (runC V c t h0 h1 xs).1 S1024x128.size (by sl_kernel_rfl) y

/-- What each run leaves in the accumulator, and at `j = 7` in the output block's buffer: its stores read back. -/
def scrA (c : Dev nD) (t : Fin cfg1.N) (h0 : t.val % 8 = 0) : Vec F S1024x128 .f32 :=
  VS1.read (Elt F) (VS1.writes (Elt F) VS1.junk (runA V c t h0).2.1)
def scrB (c : Dev nD) (t : Fin cfg1.N) (h0 : ¬t.val % 8 = 0) (h1 : ¬t.val % 8 = 7) (xs : Vec F S1024x128 .f32) : Vec F S1024x128 .f32 :=
  VS1.read (Elt F) (VS1.writes (Elt F) VS1.junk (runB V c t h0 h1 xs).2.1)
def scrC (c : Dev nD) (t : Fin cfg1.N) (h0 : ¬t.val % 8 = 0) (h1 : t.val % 8 = 7) (xs : Vec F S1024x128 .f32) : Vec F S1024x128 .f32 :=
  VS1.read (Elt F) (VS1.writes (Elt F) VS1.junk (runC V c t h0 h1 xs).2.1)
def outC (c : Dev nD) (t : Fin cfg1.N) (h0 : ¬t.val % 8 = 0) (h1 : t.val % 8 = 7) (xs : Vec F S1024x128 .f32) : Vec F S1024x128 .f32 :=
  VO1_6.read (Elt F) (VO1_6.writes (Elt F) VO1_6.junk (runC V c t h0 h1 xs).1)

/-! ## The accumulation -/

/-- What the output block's buffer and the accumulator hold after the body at position `n`: the case the closed
    forms select, over what position `n - 1` left in the accumulator. -/
def outsAt1 (c : Dev nD) : (n : ℕ) → n < cfg1.N → Vec F S1024x128 .f32 × Vec F S1024x128 .f32
  | 0, hn => (idle6, scrA V c ⟨0, hn⟩ (Nat.zero_mod _))
  | n + 1, hn =>
    if h0 : (n + 1) % 8 = 0 then (idle6, scrA V c ⟨n + 1, hn⟩ h0)
    else if h1 : (n + 1) % 8 = 7 then
      (outC V c ⟨n + 1, hn⟩ h0 h1 (outsAt1 c n (Nat.lt_of_succ_lt hn)).2, scrC V c ⟨n + 1, hn⟩ h0 h1 (outsAt1 c n (Nat.lt_of_succ_lt hn)).2)
    else (idle6, scrB V c ⟨n + 1, hn⟩ h0 h1 (outsAt1 c n (Nat.lt_of_succ_lt hn)).2)

theorem outsAt1_A (c : Dev nD) (t : Fin cfg1.N) (h0 : t.val % 8 = 0) :
    outsAt1 V c t.val t.isLt = (idle6, scrA V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle6, scrB V c t h0 h1 (outsAt1 V c (t.val - 1) (Nat.lt_of_le_of_lt (Nat.sub_le _ _) t.isLt)).2) := by
  obtain ⟨n, hn⟩ := t
  cases n with
  | zero => exact (by exfalso; exact h0 (Nat.zero_mod _))
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2, scrC V c t h0 h1 (outsAt1 V c (t.val - 1) (Nat.lt_of_le_of_lt (Nat.sub_le _ _) t.isLt)).2) := by
  obtain ⟨n, hn⟩ := t
  cases n with
  | zero => exact (by exfalso; exact h0 (Nat.zero_mod _))
  | succ n => exact (dif_neg h0).trans ((dif_pos h1).trans rfl)

/-- What the pipeline keeps between points: before the first point the accumulator at anything; afterwards at what
    the point before left in it. The other grid's staging buffers ride along at some contents. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- On core `c`: the arrays as the grid finds them; after the body at point `t` each input's buffer at its block
    and the output block's at `outsAt1`; between points the accumulator at `outsAt1`'s second component. The
    scaled features are read through two windows, each holding half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- No input window is ever idle. -/
theorem liveAt1_in (w : Fin 7) (hw : w ≠ 6) (t : Fin cfg1.N) : cfg1.idle w (grid1.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, h => exact absurd rfl h

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' buffers hold their blocks; the closed forms say which case the point is in;
    the accumulator is handed over at what the point before left and taken back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold scrA; (try dsimp only)
    by_cases hz : t.val = 0
    · rw [PhiS1_castSucc V c t, PhiS1_zero V c _ _ hz, PhiA1_eq]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold outC scrC; (try dsimp only)
      rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC V c t h0 h1 _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold scrB; (try dsimp only)
      rw [PhiS1_castSucc V c t, PhiS1_pos V c _ _ hz]
      iintro ⟨⟨⟨Ha, Hb, Hc, Hd, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the grid is entered with is what the pipeline keeps before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.KernelIdeal.Fr

end
-- ==== Proof.KernelIdealR1Arr.lean ====
/-
  The aggregation pass reads the scaled features through two windows (the tile's column block and its row block),
  so the one array behind them is held half by each. Stated here: the core's buffers that no grid scopes, each held
  whole, are the seven windows' arrays at the shares the proof data names beside the buffers no window reads; and
  back, when the pass is over, with the output array at its new contents.
-/
import proofs.«165293_j27951647162470_2_alg».proof.Proof.KernelIdealR1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The seven windows' arrays, one by one, at the shares the proof data names. -/
theorem arrays1_eq (c : Dev nD) (G : (w : Fin cfg1.W) → Buf (Elt F) ((cfg1.win w).arr.view.loc (c : Thread nD τ))) :
    ((dat1 V c).arrays G : sProp 𝕄) = iprop((((c : Thread nD τ).loc main_arg0) ↦{fullShare} G 0) ∗ (((c : Thread nD τ).loc main_v2) ↦{fullShare.left} G 1) ∗ (((c : Thread nD τ).loc main_v2) ↦{fullShare.right} G 2)
      ∗ (((c : Thread nD τ).loc main_v0) ↦{fullShare} G 3) ∗ (((c : Thread nD τ).loc main_v3) ↦{fullShare} G 4) ∗ (((c : Thread nD τ).loc main_v4) ↦{fullShare} G 5) ∗ (((c : Thread nD τ).loc main_v5) ↦{fullShare} G 6)) := by
  have e : ∀ w : Fin cfg1.W, (((cfg1.win w).arr.view.loc (c : Thread nD τ)) ↦[(cfg1.win w).arr.view.set]{(dat1 V c).share w} G w : sProp 𝕄)
      = (((cfg1.win w).arr.view.loc (c : Thread nD τ)) ↦{(dat1 V c).share w} G w) := fun w => by rw [(arr_whole1 w).set_eq_univ]
  unfold Dat.arrays
  simp only [e]
  rw [bigSep_W1]
  rfl

/-- The six distinct buffers behind the seven windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v2) ↦{fullShare} V' main_v2) ∗ (((c : Thread nD τ).loc main_v0) ↦{fullShare} V' main_v0)
        ∗ (((c : Thread nD τ).loc main_v3) ↦{fullShare} V' main_v3) ∗ (((c : Thread nD τ).loc main_v4) ↦{fullShare} V' main_v4) ∗ (((c : Thread nD τ).loc main_v5) ↦{fullShare} V' main_v5)) := by
  unfold Pipeline.arrBufs
  exact bigSep_eq_bigSepL_of_eq [main_arg0, main_v2, main_v0, main_v3, main_v4, main_v5] (by decide) (by decide) _

theorem unscopedBufs_split1 (c : Dev nD) (V' : (b : Ref sig .tc) → Buf (Elt F) ((c : Thread nD τ).loc b)) :
    (unscopedBufs c V' : sProp 𝕄) = iprop((Pipeline.arrBufs spec1 c V' : sProp 𝕄) ∗ Pipeline.unscopedRest spec1 c V') :=
  Pipeline.unscopedBufs_split₀ cfgs (1 : Fin 2) winFacts₀1.arr_unscoped c V'

/-- Entering the pass: the features' array is split between its two windows. -/
theorem arrays_of_unscopedBufs1 (c : Dev nD) :
    (unscopedBufs c (V c) : sProp 𝕄) ⊢ iprop((dat1 V c).arrays ((dat1 V c).arrAt · 0) ∗ Pipeline.unscopedRest spec1 c (V c)) := by
  rw [unscopedBufs_split1 c (V c)]
  refine sep_mono ?_ .rfl
  rw [arrBufs1_eq, arrays1_eq]
  iintro ⟨H0, H2, Hv0, Hv3, Hv4, Hv5⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  isplitl [Hv0]; · iexact Hv0
  isplitl [Hv3]; · iexact Hv3
  isplitl [Hv4]; · iexact Hv4
  iexact Hv5

/-- Leaving the pass: the two halves are joined again, every array at the contents `V'` names for it. -/
theorem unscopedBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1 c V']
  refine sep_mono ?_ (Entails.of_eq ?_)
  · rw [arrBufs1_eq, arrays1_eq, hG 0, hG 1, hG 2, hG 3, hG 4, hG 5, hG 6]
    iintro ⟨H0, H2l, H2r, Hv0, Hv3, Hv4, Hv5⟩
    isplitl [H0]; · iexact H0
    isplitl [H2l H2r]
    · iapply (pointsTo_share (PosShare.mem_left_op_right fullShare)).2
      isplitl [H2l]; · iexact H2l
      iexact H2r
    isplitl [Hv0]; · iexact Hv0
    isplitl [Hv3]; · iexact Hv3
    isplitl [Hv4]; · iexact Hv4
    iexact Hv5
  · unfold Pipeline.unscopedRest
    exact bigSep_congr fun b hb => by rw [hrest b (Finset.mem_sdiff.mp hb).2]

end Cert.KernelIdeal.Fr

end
-- ==== Proof.KernelIdealRun.lean ====
/-
  The whole program at any float instance: the degree pass, four host operations (the degree column broadcast over
  the feature axis, its product with the features, the weights' transpose, the bias as a row), the aggregation
  pass. The contents of the core's unscoped buffers are followed through the three segments — after the degree pass
  the degree column at what its write-backs leave, after the host operations their results, after the aggregation
  pass the output array at what its write-backs leave — and every weakly fair execution is shown to terminate with
  every unscoped buffer at the last of these.
-/
import proofs.«165293_j27951647162470_2_alg».proof.Proof.KernelIdealR0
import proofs.«165293_j27951647162470_2_alg».proof.Proof.KernelIdealR1Arr
import proofs.«165293_j27951647162470_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the degree pass: the degree column at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the aggregation pass: the output array at what the write-backs leave, every other buffer as entered. -/
def W3 (c : Dev nD) : Valuation τ sig (Elt F) :=
  Function.update (W2 m c) (Proc.devRef .tc main_v5) ((dat1 (V2 m) c).arrAt 6 cfg1.N)
theorem W3_out (c : Dev nD) : W3 m c (Proc.devRef .tc main_v5) = (dat1 (V2 m) c).arrAt 6 cfg1.N := by
  unfold W3; exact Function.update_self _ _ _
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m c b

theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_arg0 (by decide)).symm
  | ⟨1, _⟩ => exact (((dat1 (V2 m) c).arrAt_in 1 rfl _).trans (A_eq1 (V2 m) c 1)).trans (W3_of_ne m c main_v2 (by decide)).symm
  | ⟨2, _⟩ => exact (((dat1 (V2 m) c).arrAt_in 2 rfl _).trans (A_eq1 (V2 m) c 2)).trans (W3_of_ne m c main_v2 (by decide)).symm
  | ⟨3, _⟩ => exact (((dat1 (V2 m) c).arrAt_in 3 rfl _).trans (A_eq1 (V2 m) c 3)).trans (W3_of_ne m c main_v0 (by decide)).symm
  | ⟨4, _⟩ => exact (((dat1 (V2 m) c).arrAt_in 4 rfl _).trans (A_eq1 (V2 m) c 4)).trans (W3_of_ne m c main_v3 (by decide)).symm
  | ⟨5, _⟩ => exact (((dat1 (V2 m) c).arrAt_in 5 rfl _).trans (A_eq1 (V2 m) c 5)).trans (W3_of_ne m c main_v4 (by decide)).symm
  | ⟨6, _⟩ => exact (W3_out m c).symm
theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

/-! ### The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h

theorem W3_main_arg0 (c : Dev nD) : W3 m c (Proc.devRef .tc main_arg0) = m ((c : Thread nD τ).loc main_arg0) :=
  (W3_of_ne m c main_arg0 (by decide)).trans <| (W2_of m c main_arg0 (by decide)).trans <|
    (W1_arr m c 0).trans (((dat0 (V0 m) c).arrAt_in 0 rfl _).trans (A_eq0 (V0 m) c 0))
theorem W3_main_arg1 (c : Dev nD) : W3 m c (Proc.devRef .tc main_arg1) = m ((c : Thread nD τ).loc main_arg1) :=
  (W3_of_ne m c main_arg1 (by decide)).trans <| (W2_of m c main_arg1 (by decide)).trans <| W1_of_ne m c main_arg1 (by decide)
theorem W3_main_arg2 (c : Dev nD) : W3 m c (Proc.devRef .tc main_arg2) = m ((c : Thread nD τ).loc main_arg2) :=
  (W3_of_ne m c main_arg2 (by decide)).trans <| (W2_of m c main_arg2 (by decide)).trans <| W1_of_ne m c main_arg2 (by decide)
theorem W3_main_arg3 (c : Dev nD) : W3 m c (Proc.devRef .tc main_arg3) = m ((c : Thread nD τ).loc main_arg3) :=
  (W3_of_ne m c main_arg3 (by decide)).trans <| (W2_of m c main_arg3 (by decide)).trans <| W1_of_ne m c main_arg3 (by decide)

/-! ## The proof data family and the thread state -/

abbrev adm' : (p : Fin 2) → (pcfgs (F := F) p).Adm := fun p => (cfgs p).toPCfg_adm
/-- Each pass's proof data at the contents its grid is entered with. -/
def pdats : (p : Fin 2) → (c : Dev nD) → Dat τ (Elt F) Unit ℕ (UR sig nD τ) ℕ (Pipeline.pin (pcfgs (F := F)) adm' p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two passes as segments -/

set_option backward.isDefEq.respectTransparency.types false in
/-- The degree pass over the thread state: entered from every unscoped buffer at launch, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `W2`, left at `W3`; the
    features' array split between its two windows at entry and joined again at exit. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := unscopedBufs_of_arrays1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, and every
    unscoped buffer of every core ends at `W3`: the arguments as launched, the result array at what the aggregation
    pass's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The result array ends at what the aggregation pass's write-backs leave, the arguments as launched. -/
theorem run_out : θ_run defs (onTc (τ := τ) (main (F := F))) ⟨m, fun _ => 0, ρ⟩ (fun r => ∀ c : Dev nD,
      r.2.mem ((c.tc : Thread nD τ).loc main_v5) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_out m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Fr

end
-- ==== Proof.Spec.lean ====
/-
  The function both programs compute, over the extended reals, index by index.

  For an adjacency `adj` (N × N, N = 8192), features `feat` (N × 128), weights `W` (128 × 128) and bias `b`:
  the degree scale of row `i` is `dinv i = s(rsqrt(Σ_j adj i j + 1))`, where `s` sends the two infinities
  to zero (a row whose degree is zero or negative contributes nothing); the scaled features are
  `sfeat j k = dinv j · feat j k`; the aggregate of row `i` is the row's own scaled features plus the
  adjacency row against the scaled features, the column index cut into eight blocks of 1024,
  `acc i k = sfeat i k + Σ_jb Σ_jj adj i (1024·jb + jj) · sfeat (1024·jb + jj) k`; the result is
  `out i o = max (Σ_k (dinv i · acc i k) · W o k + b o) 0`.
-/
import Idealize.ShloMosaic.PureOps.Ideal
import Mathlib.Algebra.BigOperators.Fin

noncomputable section

namespace Cert.GCN

open Idealize.ShloMosaic

/-- Column `1024·jb + jj` of the adjacency: block `jb` of eight, offset `jj` inside it. -/
def col (jb : Fin 8) (jj : Fin 1024) : Fin 8192 := ⟨1024 * jb.val + jj.val, by have := jb.isLt; have := jj.isLt; omega⟩

/-- The two infinities are sent to zero, every other value kept. -/
def dsel (x : EReal) : EReal := if x = ⊤ ∨ x = ⊥ then 0 else x

/-- The sum of row `i` of the adjacency. -/
def rowsum (adj : Fin 8192 → Fin 8192 → EReal) (i : Fin 8192) : EReal := ∑ j : Fin 8192, adj i j

/-- The degree scale of row `i`: the reciprocal square root of the row sum plus one, infinities sent to zero. -/
def dinv (adj : Fin 8192 → Fin 8192 → EReal) (i : Fin 8192) : EReal := dsel (Ideal.rsqrt (rowsum adj i + 1))

/-- The features scaled row by row. -/
def sfeat (adj : Fin 8192 → Fin 8192 → EReal) (feat : Fin 8192 → Fin 128 → EReal) (j : Fin 8192) (k : Fin 128) : EReal :=
  dinv adj j * feat j k

/-- The aggregate of row `i`: its own scaled features plus the adjacency row against the scaled features,
    the columns taken block by block. -/
def acc (adj : Fin 8192 → Fin 8192 → EReal) (feat : Fin 8192 → Fin 128 → EReal) (i : Fin 8192) (k : Fin 128) : EReal :=
  sfeat adj feat i k + ∑ jb : Fin 8, ∑ jj : Fin 1024, adj i (col jb jj) * sfeat adj feat (col jb jj) k

/-- The layer's output at row `i`, feature `o`. -/
def out (adj : Fin 8192 → Fin 8192 → EReal) (feat : Fin 8192 → Fin 128 → EReal) (W : Fin 128 → Fin 128 → EReal)
    (b : Fin 128 → EReal) (i : Fin 8192) (o : Fin 128) : EReal :=
  max (∑ k : Fin 128, (dinv adj i * acc adj feat i k) * W o k + b o) 0

end Cert.GCN

end
-- ==== Proof.KernelIdealAggDefs.lean ====
/-
  The aggregation pass at the ideal instance, from the arrays it is entered with: the adjacency `adj`, the scaled
  features `sf`, the degree column `d`, the transposed weights `wt` and the bias row `b`. Row `i`'s aggregate is
  `accK i k = sf i k + Σ_jb Σ_jj adj i (1024 jb + jj) · sf (1024 jb + jj) k` and the output is
  `outK i o = max (Σ_k (d i · accK i k) · wt k o + b o) 0`. Named here with the entry arrays read off the buffers.
-/
import proofs.«165293_j27951647162470_2_alg».proof.Proof.KernelIdealR1
import proofs.«165293_j27951647162470_2_alg».proof.Proof.Spec
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The aggregate of row `i` from the entry arrays. -/
def accK (adj : Fin 8192 → Fin 8192 → EReal) (sf : Fin 8192 → Fin 128 → EReal) (i : Fin 8192) (k : Fin 128) : EReal :=
  sf i k + ∑ jb : Fin 8, ∑ jj : Fin 1024, adj i (Cert.GCN.col jb jj) * sf (Cert.GCN.col jb jj) k

/-- The output from the entry arrays. -/
def outK (adj : Fin 8192 → Fin 8192 → EReal) (sf : Fin 8192 → Fin 128 → EReal) (d : Fin 8192 → EReal)
    (wt : Fin 128 → Fin 128 → EReal) (b : Fin 128 → EReal) (i : Fin 8192) (o : Fin 128) : EReal :=
  max ((∑ k : Fin 128, (d i * accK adj sf i k) * wt k o) + b o) 0

/-- With the scaled features, the degree column and the transposed weights what the program computes for them,
    it is the layer's output. -/
theorem outK_spec (adj : Fin 8192 → Fin 8192 → EReal) (feat : Fin 8192 → Fin 128 → EReal) (W : Fin 128 → Fin 128 → EReal)
    (b : Fin 128 → EReal) (i : Fin 8192) (o : Fin 128) :
    outK adj (Cert.GCN.sfeat adj feat) (Cert.GCN.dinv adj) (fun k o => W o k) b i o = Cert.GCN.out adj feat W b i o := rfl

/-! The entry arrays, read off the buffers. -/
abbrev adjV (c : Dev nD) : Fin 8192 → Fin 8192 → EReal := fun i j => (V c main_arg0 : S8192x8192.Idx → Elt Ideal .f32) (ix2 i j)
abbrev sfV (c : Dev nD) : Fin 8192 → Fin 128 → EReal := fun j k => (V c main_v2 : S8192x128.Idx → Elt Ideal .f32) (ix2 j k)
abbrev dV (c : Dev nD) : Fin 8192 → EReal := fun i => (V c main_v0 : S8192x1.Idx → Elt Ideal .f32) (ix2 i (0 : Fin 1))
abbrev wtV (c : Dev nD) : Fin 128 → Fin 128 → EReal := fun k o => (V c main_v3 : S128x128.Idx → Elt Ideal .f32) (ix2 k o)
abbrev bV (c : Dev nD) : Fin 128 → EReal := fun o => (V c main_v4 : S1x128.Idx → Elt Ideal .f32) (ix2 (0 : Fin 1) o)

/-- The output array the pass leaves, as one function of the entry arrays. -/
def Gout (c : Dev nD) : S8192x128.Idx → Elt Ideal .f32 := fun idx =>
  outK (adjV V c) (sfV V c) (dV V c) (wtV V c) (bV V c) ⟨(idx 0).val, (idx 0).isLt⟩ ⟨(idx 1).val, (idx 1).isLt⟩

/-- Point `t = 8 i + j`: its row block `i` and its column block `j`. -/
def tb (t : Fin cfg1.N) : Fin 8 := ⟨t.val / 8, by have h : t.val < 64 := lt_of_lt_of_eq t.isLt N_1; omega⟩
def tj (t : Fin cfg1.N) : Fin 8 := ⟨t.val % 8, Nat.mod_lt _ (by decide)⟩

end Cert.KernelIdeal.Fr

end
-- ==== Proof.KernelIdealPieces.lean ====
/-
  What the two passes' runs found, as the payloads of the blocks, at any float instance.

  Every load of the two bodies reads a whole staging buffer and every store writes one, through the rectangle of the
  buffer's own sizes at zero offsets. So a buffer a run stored to reads back as the last store's payload, a load
  between two stores reads the first store's payload, and a load of a buffer handed over at contents `x` reads `x`.
  The degree pass leaves the row-wise value of its rows. In the aggregation pass, at `j = 0` the accumulator is
  stored with the row block's scaled features and then with that plus the tile product; at `j > 0` it is stored
  with what it held plus the tile product; at `j = 7` the output block is stored from the accumulator just written.
-/
import proofs.«165293_j27951647162470_2_alg».proof.Proof.KernelIdealR1
import proofs.«165293_j27951647162470_2_alg».proof.Proof.KernelIdealR0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of a whole block, as the body's loads and stores spell them, are zero on both axes. -/
theorem hz2 : (![0, 0] : Fin 2 → Nat) = fun _ => 0 := funext fun a => by fin_cases a <;> rfl

/-! ## The degree pass -/

/-- The one store of the degree pass covers its block and its load reads the whole block of rows: what the body
    leaves is the row-wise value of the rows. -/
theorem out0_1_eq (x0 : Vec F S256x8192 .f32) : out0_1 x0 = k0_pay1 x0 := by
  unfold out0_1
  rw [View.canon_unit_zero hz2, View.ld_unit_zero (S := S256x8192) hz2]

/-! ## The aggregation pass: the stores each run found, over variables -/

/-- At `j = 0`: the accumulator is first stored with the row block's scaled features, read back whole, and stored
    again with that plus the tile product; the last store covers the accumulator. -/
theorem canonA (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x1024 .f32) (x1 : Vec F S1024x128 .f32) (x2 : Vec F S1024x128 .f32) (x3 : Vec F S1024x1 .f32) (x4 : Vec F S128x128 .f32) (x5 : Vec F S1x128 .f32) :
    View.canon (kernelRun1_A (F := F) c i arg2 harg2 arg3 harg3 arg4 harg4 arg5 harg5 arg6 harg6 arg7 harg7 arg8 harg8 arg9 harg9 hc0 hc1 x0 x1 x2 x3 x4 x5).2.1 = k1_pay2 x0 x1 (k1_pay1 x2) := by
  unfold kernelRun1_A
  dsimp only
  rw [View.canon_cons_unit_zero (S := S1024x128) hz2]
  sl_unfold_words
  rw [View.readCov_unit_zero (S := S1024x128) _ hz2]
  simp only [View.readAt_eq_ld, harg2.read_unread, harg3.read_unread, harg4.read_unread, harg5.read_unread, harg6.read_unread, harg7.read_unread, harg9.read_unread,
    View.ld_unit_zero (S := S1024x1024) hz2, View.ld_unit_zero (S := S1024x128) hz2, View.ld_unit_zero (S := S1024x1) hz2,
    View.ld_unit_zero (S := S128x128) hz2, View.ld_unit_zero (S := S1x128) hz2]

/-- At `0 < j < 7`: the accumulator, holding `xs`, is read whole and stored with `xs` plus the tile product. -/
theorem canonB (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    View.canon (kernelRun1_B (F := F) c i arg2 harg2 arg3 harg3 arg4 harg4 arg5 harg5 arg6 harg6 arg7 harg7 arg8 harg8 arg9 harg9 hc0 hc1 x0 x1 x2 x3 x4 x5 xs).2.1 = k1_pay2 x0 x1 xs := by
  unfold kernelRun1_B
  dsimp only
  rw [View.canon_cons_unit_zero (S := S1024x128) hz2]
  simp only [View.readAt_eq_ld, harg2.read_unread, harg3.read_unread, harg4.read_unread, harg5.read_unread, harg6.read_unread, harg7.read_unread, harg9.read_unread,
    View.ld_unit_zero (S := S1024x1024) hz2, View.ld_unit_zero (S := S1024x128) hz2, View.ld_unit_zero (S := S1024x1) hz2,
    View.ld_unit_zero (S := S128x128) hz2, View.ld_unit_zero (S := S1x128) hz2]

/-- At `j = 7` the accumulator is updated as at `0 < j < 7`, -/
theorem canonC (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    View.canon (kernelRun1_C (F := F) c i arg2 harg2 arg3 harg3 arg4 harg4 arg5 harg5 arg6 harg6 arg7 harg7 arg8 harg8 arg9 harg9 hc0 hc1 x0 x1 x2 x3 x4 x5 xs).2.1 = k1_pay2 x0 x1 xs := by
  unfold kernelRun1_C
  dsimp only
  sl_unfold_words
  rw [View.canon_cons_unit_zero (S := S1024x128) hz2]
  simp only [View.readAt_eq_ld, harg2.read_unread, harg3.read_unread, harg4.read_unread, harg5.read_unread, harg6.read_unread, harg7.read_unread, harg9.read_unread,
    View.ld_unit_zero (S := S1024x1024) hz2, View.ld_unit_zero (S := S1024x128) hz2, View.ld_unit_zero (S := S1024x1) hz2,
    View.ld_unit_zero (S := S128x128) hz2, View.ld_unit_zero (S := S1x128) hz2]

/-- and the output block is stored from the accumulator just written, read back whole. -/
theorem canonC6 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x1024 .f32) (x1 : Vec F S1024x128 .f32) (x2 : Vec F S1024x128 .f32) (x3 : Vec F S1024x1 .f32) (x4 : Vec F S128x128 .f32) (x5 : Vec F S1x128 .f32) (xs : Vec F S1024x128 .f32) :
    View.canon (kernelRun1_C (F := F) c i arg2 harg2 arg3 harg3 arg4 harg4 arg5 harg5 arg6 harg6 arg7 harg7 arg8 harg8 arg9 harg9 hc0 hc1 x0 x1 x2 x3 x4 x5 xs).1 = k1_pay3 x3 (k1_pay2 x0 x1 xs) x4 x5 := by
  unfold kernelRun1_C
  dsimp only
  rw [View.canon_cons_unit_zero (S := S1024x128) hz2]
  sl_unfold_words
  rw [View.readCov_unit_zero (S := S1024x128) _ hz2]
  simp only [View.readAt_eq_ld, harg2.read_unread, harg3.read_unread, harg4.read_unread, harg5.read_unread, harg6.read_unread, harg7.read_unread, harg9.read_unread,
    View.ld_unit_zero (S := S1024x1024) hz2, View.ld_unit_zero (S := S1024x128) hz2, View.ld_unit_zero (S := S1024x1) hz2,
    View.ld_unit_zero (S := S128x128) hz2, View.ld_unit_zero (S := S1x128) hz2]

/-! ## At a point's buffers and blocks -/

/-- At a point with `j = 0` the accumulator is left at the row block's scaled features plus the tile product. -/
theorem scrA_eq (c : Dev nD) (t : Fin cfg1.N) (h0 : t.val % 8 = 0) :
    scrA V c t h0 = k1_pay2 (iblk1 V c 0 t) (iblk1 V c 1 t) (k1_pay1 (iblk1 V c 2 t)) :=
  (View.read_writes_junk_eq_canon VS1 (runA V c t h0).2.1).trans
    (canonA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t))

/-- At a point with `0 < j < 7` the accumulator, found at `xs`, is left at `xs` plus the tile product. -/
theorem scrB_eq (c : Dev nD) (t : Fin cfg1.N) (h0 : ¬t.val % 8 = 0) (h1 : ¬t.val % 8 = 7) (xs : Vec F S1024x128 .f32) :
    scrB V c t h0 h1 xs = k1_pay2 (iblk1 V c 0 t) (iblk1 V c 1 t) xs :=
  (View.read_writes_junk_eq_canon VS1 (runB V c t h0 h1 xs).2.1).trans
    (canonB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs)

/-- At a point with `j = 7` likewise, -/
theorem scrC_eq (c : Dev nD) (t : Fin cfg1.N) (h0 : ¬t.val % 8 = 0) (h1 : t.val % 8 = 7) (xs : Vec F S1024x128 .f32) :
    scrC V c t h0 h1 xs = k1_pay2 (iblk1 V c 0 t) (iblk1 V c 1 t) xs :=
  (View.read_writes_junk_eq_canon VS1 (runC V c t h0 h1 xs).2.1).trans
    (canonC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs)

/-- and the output block's buffer is left at the layer's value of the accumulator just written. -/
theorem outC_eq (c : Dev nD) (t : Fin cfg1.N) (h0 : ¬t.val % 8 = 0) (h1 : t.val % 8 = 7) (xs : Vec F S1024x128 .f32) :
    outC V c t h0 h1 xs = k1_pay3 (iblk1 V c 3 t) (k1_pay2 (iblk1 V c 0 t) (iblk1 V c 1 t) xs) (iblk1 V c 4 t) (iblk1 V c 5 t) :=
  (View.read_writes_junk_eq_canon VO1_6 (runC V c t h0 h1 xs).1).trans
    (canonC6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs)

end Cert.KernelIdeal.Fr

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.PayAcc.lean ====
/-
  The accumulation step's stored value, read at an index, over the extended reals.

  One step of the aggregation adds to the running block the product of a 1024 × 1024 block of the adjacency by a
  1024 × 128 block of the scaled features. At the ideal values the two narrowings to bf16 are the identity, the two
  casts between equal shapes are the identity, and the product into the zero accumulator is the plain sum over the
  contraction index: entry (r, k) of the stored block is the old entry plus Σ_jj adj (r, jj) · sfeat (jj, k).
-/
import proofs.«165293_j27951647162470_2_alg».proof.Proof.Gen.KernelIdeal.Skeleton
import proofs.«165293_j27951647162470_2_alg».proof.Proof.LibPlainMatmul
import Idealize.ShloMosaic.Lib.Pipeline.Value
import Idealize.ShloMosaic.Lib.ValueIdx

noncomputable section

namespace Cert.GCN.Pay

open Idealize.ShloMosaic Idealize.ShloMosaic.ValueIdx Cert.KernelIdeal Cert.KernelIdeal.Gen

/-- The accumulation step at (r, k): the carried entry plus the row of the adjacency block against the column of the
    feature block. -/
theorem pay_acc (x3 : Vec Ideal S1024x1024 .f32) (x5 : Vec Ideal S1024x128 .f32) (x8 : Vec Ideal S1024x128 .f32)
    (r : Fin 1024) (k : Fin 128) :
    k1_pay2 (F := Ideal) x3 x5 x8 (ix2 r k) = x8 (ix2 r k) + ∑ jj : Fin 1024, x3 (ix2 r jj) * x5 (ix2 jj k) := by
  unfold k1_pay2
  -- the casts between equal shapes drop out; the sum of two blocks is read entry by entry
  rw [shapeCast_self, shapeCast_self, addf_apply]
  refine congrArg (x8 (ix2 r k) + ·) ?_
  -- the product into the zero block is the sum over the contraction index; the narrowings are the identity
  exact Cert.Lib.PlainMatmul.matmul_zero_apply dot_S1024x1024_S1024x128_S1024x128_1_0_0_1_n_n rfl rfl rfl rfl rfl rfl none
    (truncf FTy.bf16 x3 bitsLt_bf16_f32) (truncf FTy.bf16 x5 bitsLt_bf16_f32) r k

/-- The first step's stored value: two casts between equal shapes, the identity. -/
theorem pay_init (x : Vec Ideal S1024x128 .f32) : k1_pay1 (F := Ideal) x = x :=
  (shapeCast_self (shapeCast S1024x128 x shapeCasts_S1024x128_S1024x128) shapeCasts_S1024x128_S1024x128).trans
    (shapeCast_self x shapeCasts_S1024x128_S1024x128)

end Cert.GCN.Pay

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.PayOut.lean ====
/-
  The last step's stored value, read at an index, over the extended reals.

  When the eight blocks of a row block are aggregated, the kernel scales each row of the aggregate by the row's degree
  scale, multiplies by the 128 × 128 weights, adds the bias row and cuts off below at zero. At the ideal values the
  narrowings to bf16 and the casts between equal shapes are the identity, the degree column broadcast along the row
  reads the row's one entry, the bias row broadcast down the rows reads the column's entry, and the product into the
  zero accumulator is the plain sum over the contraction index: entry (r, o) is
  max (Σ_k (d r · acc (r, k)) · w (k, o) + b o) 0.
-/
import proofs.«165293_j27951647162470_2_alg».proof.Proof.Gen.KernelIdeal.Skeleton
import proofs.«165293_j27951647162470_2_alg».proof.Proof.LibPlainMatmul
import proofs.«165293_j27951647162470_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.GCN.Pay

open Idealize.ShloMosaic Idealize.ShloMosaic.ValueIdx Cert.KernelIdeal Cert.KernelIdeal.Gen

/-- The last step's stored value at (r, o): the row's degree scale times the row's aggregate, against the column of
    the weights, plus the bias, cut off below at zero. -/
theorem pay_out (v17 : Vec Ideal S1024x1 .f32) (v19 : Vec Ideal S1024x128 .f32) (v23 : Vec Ideal S128x128 .f32)
    (v27 : Vec Ideal S1x128 .f32) (r : Fin 1024) (o : Fin 128) :
    k1_pay3 (F := Ideal) v17 v19 v23 v27 (ix2 r o)
      = max ((∑ k : Fin 128, (v17 (ix2 r 0) * v19 (ix2 r k)) * v23 (ix2 k o)) + v27 (ix2 0 o)) 0 := by
  unfold k1_pay3
  -- the casts between equal shapes drop out; maximum, sum and the two splats are read entry by entry; the bias row
  -- broadcast down the rows reads the row's entry in column o
  rw [shapeCast_self, shapeCast_self, shapeCast_self, maximumf_apply, addf_apply, broadcast_apply,
    broadcastTo_1b_ab_apply]
  -- the literal zero
  refine (congrArg (max _ ·) Ideal.ofBits_zero_f32).trans ?_
  refine congrArg (fun t => max (t + v27 (ix2 0 o)) 0) ?_
  -- the product into the zero block is the sum over the contraction index
  refine (Cert.Lib.PlainMatmul.matmul_zero_apply dot_S1024x128_S128x128_S1024x128_1_0_0_1_n_n rfl rfl rfl rfl rfl rfl none
    (truncf FTy.bf16 (mulf (broadcastTo S1024x128 v17 broadcasts_S1024x1_S1024x128) v19) bitsLt_bf16_f32)
    (truncf FTy.bf16 v23 bitsLt_bf16_f32) r o).trans ?_
  refine Finset.sum_congr rfl fun k _ => ?_
  -- the narrowings are the identity; the degree column broadcast along the row reads the row's one entry
  rw [truncf_apply, truncf_apply, mulf_apply, Idealize.ShloMosaic.ColumnLayout.broadcastTo_a1_ab_apply]

end Cert.GCN.Pay

end
-- ==== Proof.KernelIdealAgg.lean ====
/-
  The aggregation pass at the ideal instance: what the accumulator holds after each point and what the output
  block's buffer holds at the points that write it back.

  At point `t = 8 i + j` the six input blocks are the tile `(i, j)` of the adjacency, rows `1024 j …` and rows
  `1024 i …` of the scaled features, rows `1024 i …` of the degree column, the transposed weights and the bias
  row. By induction on the point, the accumulator after point `t` holds, at local row `r` and feature `k`,
  `sf (1024 i + r) k + Σ_{s ≤ j} Σ_jj adj (1024 i + r) (1024 s + jj) · sf (1024 s + jj) k`: the reset at `j = 0`
  gives the first term and the first block's product, each later point adds its block's product. At `j = 7` all
  eight blocks are in, and the output block is the output of rows `1024 i …`.
-/
import proofs.«165293_j27951647162470_2_alg».proof.Proof.KernelIdealAggDefs
import proofs.«165293_j27951647162470_2_alg».proof.Proof.KernelIdealPieces
import proofs.«165293_j27951647162470_2_alg».proof.Proof.PayAcc
import proofs.«165293_j27951647162470_2_alg».proof.Proof.PayOut
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.GCN (col)

variable (V : (c : Dev nD) → (b : Ref sig .tc) → Buf (Elt Ideal) ((c : Thread nD τ).loc b))

/-! ## The index maps, decided over the grid -/

theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)

/-! ## Each input block as a part of its array: block index × block size + the coordinate inside the block -/

theorem blk1_0_at (c : Dev nD) (t : Fin cfg1.N) (x : S1024x1024.Idx) (k : S8192x8192.Idx)
    (hk0 : (k 0).val = 1024 * (t.val / 8) + (x 0).val) (hk1 : (k 1).val = 1024 * (t.val % 8) + (x 1).val) :
    (iblk1 V c 0 t : Vec Ideal S1024x1024 .f32) x = (V c main_arg0 : S8192x8192.Idx → Elt Ideal .f32) k := by
  have hi := idx1_0 t
  unfold iblk1
  rw [View.read_apply]
  show V c main_arg0 _ = V c main_arg0 _
  congr 1
  funext a
  apply Fin.ext
  match a with
  | ⟨0, _⟩ => show win1_0.index t 0 * 1024 + 1 * (x 0).val = (k 0).val; rw [hi.1, hk0]; omega
  | ⟨1, _⟩ => show win1_0.index t 1 * 1024 + 1 * (x 1).val = (k 1).val; rw [hi.2, hk1]; omega

theorem blk1_1_at (c : Dev nD) (t : Fin cfg1.N) (x : S1024x128.Idx) (k : S8192x128.Idx)
    (hk0 : (k 0).val = 1024 * (t.val % 8) + (x 0).val) (hk1 : (k 1).val = 0 + (x 1).val) :
    (iblk1 V c 1 t : Vec Ideal S1024x128 .f32) x = (V c main_v2 : S8192x128.Idx → Elt Ideal .f32) k := by
  have hi := idx1_1 t
  unfold iblk1
  rw [View.read_apply]
  show V c main_v2 _ = V c main_v2 _
  congr 1
  funext a
  apply Fin.ext
  match a with
  | ⟨0, _⟩ => show win1_1.index t 0 * 1024 + 1 * (x 0).val = (k 0).val; rw [hi.1, hk0]; omega
  | ⟨1, _⟩ => show win1_1.index t 1 * 128 + 1 * (x 1).val = (k 1).val; rw [hi.2, hk1]; omega

theorem blk1_2_at (c : Dev nD) (t : Fin cfg1.N) (x : S1024x128.Idx) (k : S8192x128.Idx)
    (hk0 : (k 0).val = 1024 * (t.val / 8) + (x 0).val) (hk1 : (k 1).val = 0 + (x 1).val) :
    (iblk1 V c 2 t : Vec Ideal S1024x128 .f32) x = (V c main_v2 : S8192x128.Idx → Elt Ideal .f32) k := by
  have hi := idx1_2 t
  unfold iblk1
  rw [View.read_apply]
  show V c main_v2 _ = V c main_v2 _
  congr 1
  funext a
  apply Fin.ext
  match a with
  | ⟨0, _⟩ => show win1_2.index t 0 * 1024 + 1 * (x 0).val = (k 0).val; rw [hi.1, hk0]; omega
  | ⟨1, _⟩ => show win1_2.index t 1 * 128 + 1 * (x 1).val = (k 1).val; rw [hi.2, hk1]; omega

theorem blk1_3_at (c : Dev nD) (t : Fin cfg1.N) (x : S1024x1.Idx) (k : S8192x1.Idx)
    (hk0 : (k 0).val = 1024 * (t.val / 8) + (x 0).val) (hk1 : (k 1).val = 0 + (x 1).val) :
    (iblk1 V c 3 t : Vec Ideal S1024x1 .f32) x = (V c main_v0 : S8192x1.Idx → Elt Ideal .f32) k := by
  have hi := idx1_3 t
  unfold iblk1
  rw [View.read_apply]
  show V c main_v0 _ = V c main_v0 _
  congr 1
  funext a
  apply Fin.ext
  match a with
  | ⟨0, _⟩ => show win1_3.index t 0 * 1024 + 1 * (x 0).val = (k 0).val; rw [hi.1, hk0]; omega
  | ⟨1, _⟩ => show win1_3.index t 1 * 1 + 1 * (x 1).val = (k 1).val; rw [hi.2, hk1]; omega

theorem blk1_4_at (c : Dev nD) (t : Fin cfg1.N) (x : S128x128.Idx) (k : S128x128.Idx)
    (hk0 : (k 0).val = 0 + (x 0).val) (hk1 : (k 1).val = 0 + (x 1).val) :
    (iblk1 V c 4 t : Vec Ideal S128x128 .f32) x = (V c main_v3 : S128x128.Idx → Elt Ideal .f32) k := by
  have hi := idx1_4 t
  unfold iblk1
  rw [View.read_apply]
  show V c main_v3 _ = V c main_v3 _
  congr 1
  funext a
  apply Fin.ext
  match a with
  | ⟨0, _⟩ => show win1_4.index t 0 * 128 + 1 * (x 0).val = (k 0).val; rw [hi.1, hk0]; omega
  | ⟨1, _⟩ => show win1_4.index t 1 * 128 + 1 * (x 1).val = (k 1).val; rw [hi.2, hk1]; omega

theorem blk1_5_at (c : Dev nD) (t : Fin cfg1.N) (x : S1x128.Idx) (k : S1x128.Idx)
    (hk0 : (k 0).val = 0 + (x 0).val) (hk1 : (k 1).val = 0 + (x 1).val) :
    (iblk1 V c 5 t : Vec Ideal S1x128 .f32) x = (V c main_v4 : S1x128.Idx → Elt Ideal .f32) k := by
  have hi := idx1_5 t
  unfold iblk1
  rw [View.read_apply]
  show V c main_v4 _ = V c main_v4 _
  congr 1
  funext a
  apply Fin.ext
  match a with
  | ⟨0, _⟩ => show win1_5.index t 0 * 1 + 1 * (x 0).val = (k 0).val; rw [hi.1, hk0]; omega
  | ⟨1, _⟩ => show win1_5.index t 1 * 128 + 1 * (x 1).val = (k 1).val; rw [hi.2, hk1]; omega

/-! The same at coordinates. -/

theorem blk0 (c : Dev nD) (t : Fin cfg1.N) (r s : Fin 1024) :
    (iblk1 V c 0 t : Vec Ideal S1024x1024 .f32) (ix2 r s) = adjV V c (col (tb t) r) (col (tj t) s) :=
  blk1_0_at V c t (ix2 r s) (ix2 (col (tb t) r) (col (tj t) s)) rfl rfl
theorem blk1 (c : Dev nD) (t : Fin cfg1.N) (s : Fin 1024) (k : Fin 128) :
    (iblk1 V c 1 t : Vec Ideal S1024x128 .f32) (ix2 s k) = sfV V c (col (tj t) s) k :=
  blk1_1_at V c t (ix2 s k) (ix2 (col (tj t) s) k) rfl (Nat.zero_add _).symm
theorem blk2 (c : Dev nD) (t : Fin cfg1.N) (r : Fin 1024) (k : Fin 128) :
    (iblk1 V c 2 t : Vec Ideal S1024x128 .f32) (ix2 r k) = sfV V c (col (tb t) r) k :=
  blk1_2_at V c t (ix2 r k) (ix2 (col (tb t) r) k) rfl (Nat.zero_add _).symm
theorem blk3 (c : Dev nD) (t : Fin cfg1.N) (r : Fin 1024) :
    (iblk1 V c 3 t : Vec Ideal S1024x1 .f32) (ix2 r (0 : Fin 1)) = dV V c (col (tb t) r) :=
  blk1_3_at V c t (ix2 r (0 : Fin 1)) (ix2 (col (tb t) r) (0 : Fin 1)) rfl rfl
theorem blk4 (c : Dev nD) (t : Fin cfg1.N) (k o : Fin 128) :
    (iblk1 V c 4 t : Vec Ideal S128x128 .f32) (ix2 k o) = wtV V c k o :=
  blk1_4_at V c t (ix2 k o) (ix2 k o) (Nat.zero_add _).symm (Nat.zero_add _).symm
theorem blk5 (c : Dev nD) (t : Fin cfg1.N) (o : Fin 128) :
    (iblk1 V c 5 t : Vec Ideal S1x128 .f32) (ix2 (0 : Fin 1) o) = bV V c o :=
  blk1_5_at V c t (ix2 (0 : Fin 1) o) (ix2 (0 : Fin 1) o) rfl (Nat.zero_add _).symm

/-! ## One point's step on the accumulator -/

/-- Column block `s`'s product at row `r` of row block `bi`, feature `k`. -/
def Mblk (c : Dev nD) (bi s : Fin 8) (r : Fin 1024) (k : Fin 128) : EReal :=
  ∑ jj : Fin 1024, adjV V c (col bi r) (col s jj) * sfV V c (col s jj) k

/-- The same with the column block a natural number (zero past the eighth). -/
def Mn (c : Dev nD) (bi : Fin 8) (s : ℕ) (r : Fin 1024) (k : Fin 128) : EReal :=
  if h : s < 8 then Mblk V c bi ⟨s, h⟩ r k else 0

/-- The body's accumulator store at point `t`, from what the accumulator held: that plus the tile's product. -/
theorem step_val (c : Dev nD) (t : Fin cfg1.N) (xs : Vec Ideal S1024x128 .f32) (r : Fin 1024) (k : Fin 128) :
    k1_pay2 (F := Ideal) (iblk1 V c 0 t) (iblk1 V c 1 t) xs (ix2 r k) = xs (ix2 r k) + Mblk V c (tb t) (tj t) r k := by
  refine (Cert.GCN.Pay.pay_acc (iblk1 V c 0 t) (iblk1 V c 1 t) xs r k).trans ?_
  refine congrArg (xs (ix2 r k) + ·) (Finset.sum_congr rfl fun jj _ => ?_)
  rw [blk0 V c t r jj, blk1 V c t jj k]

/-! ## The accumulator and the output block after a point, case by case -/

theorem acc_A (c : Dev nD) (t : Fin cfg1.N) (h0 : t.val % 8 = 0) :
    (outsAt1 V c t.val t.isLt).2 = scrA V c t h0 := by
  rw [outsAt1_A V c t h0]
theorem acc_B (c : Dev nD) (t : Fin cfg1.N) (h0 : ¬t.val % 8 = 0) (h1 : ¬t.val % 8 = 7) :
    (outsAt1 V c t.val t.isLt).2 = scrB V c t h0 h1 (outsAt1 V c (t.val - 1) (Nat.lt_of_le_of_lt (Nat.sub_le _ _) t.isLt)).2 := by
  rw [outsAt1_B V c t h0 h1]
theorem acc_C (c : Dev nD) (t : Fin cfg1.N) (h0 : ¬t.val % 8 = 0) (h1 : t.val % 8 = 7) :
    (outsAt1 V c t.val t.isLt).2 = scrC V c t h0 h1 (outsAt1 V c (t.val - 1) (Nat.lt_of_le_of_lt (Nat.sub_le _ _) t.isLt)).2 := by
  rw [outsAt1_C V c t h0 h1]
theorem out_C (c : Dev nD) (t : Fin cfg1.N) (h0 : ¬t.val % 8 = 0) (h1 : t.val % 8 = 7) :
    (outsAt1 V c t.val t.isLt).1 = outC V c t h0 h1 (outsAt1 V c (t.val - 1) (Nat.lt_of_le_of_lt (Nat.sub_le _ _) t.isLt)).2 := by
  rw [outsAt1_C V c t h0 h1]

/-- A later point's accumulator: what the point before left plus this point's block product. -/
theorem acc_step (c : Dev nD) (t : Fin cfg1.N) (h0 : ¬t.val % 8 = 0) (r : Fin 1024) (k : Fin 128) :
    ((outsAt1 V c t.val t.isLt).2 : Vec Ideal S1024x128 .f32) (ix2 r k)
      = ((outsAt1 V c (t.val - 1) (Nat.lt_of_le_of_lt (Nat.sub_le _ _) t.isLt)).2 : Vec Ideal S1024x128 .f32) (ix2 r k)
        + Mblk V c (tb t) (tj t) r k := by
  by_cases h1 : t.val % 8 = 7
  · rw [acc_C V c t h0 h1, scrC_eq, step_val]
  · rw [acc_B V c t h0 h1, scrB_eq, step_val]

/-- A first point's accumulator: the row block's scaled features plus the first block product. -/
theorem acc_first (c : Dev nD) (t : Fin cfg1.N) (h0 : t.val % 8 = 0) (r : Fin 1024) (k : Fin 128) :
    ((outsAt1 V c t.val t.isLt).2 : Vec Ideal S1024x128 .f32) (ix2 r k)
      = sfV V c (col (tb t) r) k + Mblk V c (tb t) (tj t) r k := by
  rw [acc_A V c t h0, scrA_eq, step_val, Cert.GCN.Pay.pay_init, blk2]

/-- What the accumulator holds after a point: the row block's scaled features plus the block products so far. -/
theorem acc_val (c : Dev nD) : ∀ (n : ℕ) (t : Fin cfg1.N), t.val = n → ∀ (r : Fin 1024) (k : Fin 128),
    ((outsAt1 V c t.val t.isLt).2 : Vec Ideal S1024x128 .f32) (ix2 r k)
      = sfV V c (col (tb t) r) k + ∑ s ∈ Finset.range (t.val % 8 + 1), Mn V c (tb t) s r k := by
  intro n
  induction n with
  | zero =>
    intro t ht r k
    have h0 : t.val % 8 = 0 := by rw [ht]
    rw [acc_first V c t h0 r k]
    refine congrArg (_ + ·) ?_
    rw [h0, Finset.sum_range_one]
    unfold Mn; rw [dif_pos (by decide)]
    exact congrArg (fun s => Mblk V c (tb t) s r k) (Fin.ext h0)
  | succ n ih =>
    intro t ht r k
    have hN : t.val < 64 := lt_of_lt_of_eq t.isLt N_1
    by_cases h0 : t.val % 8 = 0
    · rw [acc_first V c t h0 r k]
      refine congrArg (_ + ·) ?_
      rw [h0, Finset.sum_range_one]
      unfold Mn; rw [dif_pos (by decide)]
      exact congrArg (fun s => Mblk V c (tb t) s r k) (Fin.ext h0)
    · have hlt : t.val - 1 < cfg1.N := Nat.lt_of_le_of_lt (Nat.sub_le _ _) t.isLt
      have hprev := ih ⟨t.val - 1, hlt⟩ (by show t.val - 1 = n; omega) r k
      have htb : tb ⟨t.val - 1, hlt⟩ = tb t := Fin.ext (by show (t.val - 1) / 8 = t.val / 8; omega)
      have hmod : t.val % 8 = (t.val - 1) % 8 + 1 := by omega
      rw [acc_step V c t h0 r k]
      refine (congrArg (· + Mblk V c (tb t) (tj t) r k) hprev).trans ?_
      rw [htb, add_assoc]
      refine congrArg (_ + ·) ?_
      show _ = ∑ s ∈ Finset.range (t.val % 8 + 1), Mn V c (tb t) s r k
      rw [hmod, Finset.sum_range_succ _ ((t.val - 1) % 8 + 1)]
      refine congrArg (_ + ·) ?_
      unfold Mn
      rw [dif_pos (show (t.val - 1) % 8 + 1 < 8 by omega)]
      exact congrArg (fun s => Mblk V c (tb t) s r k) (Fin.ext hmod)

/-- After the last column block the accumulator holds the row's aggregate. -/
theorem acc_last (c : Dev nD) (t : Fin cfg1.N) (h1 : t.val % 8 = 7) (r : Fin 1024) (k : Fin 128) :
    ((outsAt1 V c t.val t.isLt).2 : Vec Ideal S1024x128 .f32) (ix2 r k) = accK (adjV V c) (sfV V c) (col (tb t) r) k := by
  rw [acc_val V c t.val t rfl r k, h1]
  unfold accK
  refine congrArg (_ + ·) ?_
  rw [Finset.sum_range (fun s => Mn V c (tb t) s r k)]
  refine Finset.sum_congr rfl fun jb _ => ?_
  unfold Mn; rw [dif_pos jb.isLt]; rfl

/-- At a point with `j = 7` the output block's buffer holds the output of the point's rows. -/
theorem outblk_val (c : Dev nD) (t : Fin cfg1.N) (h1 : t.val % 8 = 7) (r : Fin 1024) (o : Fin 128) :
    ((outsAt1 V c t.val t.isLt).1 : Vec Ideal S1024x128 .f32) (ix2 r o)
      = outK (adjV V c) (sfV V c) (dV V c) (wtV V c) (bV V c) (col (tb t) r) o := by
  have h0 : ¬t.val % 8 = 0 := by omega
  have hacc := acc_last V c t h1 r
  rw [acc_C V c t h0 h1, scrC_eq] at hacc
  rw [out_C V c t h0 h1, outC_eq]
  refine (Cert.GCN.Pay.pay_out (iblk1 V c 3 t) _ (iblk1 V c 4 t) (iblk1 V c 5 t) r o).trans ?_
  unfold outK
  rw [blk3 V c t r, blk5 V c t o]
  refine congrArg (fun z => max (z + bV V c o) 0) (Finset.sum_congr rfl fun k _ => ?_)
  rw [blk4 V c t k o, hacc k]

end Cert.KernelIdeal.Fr

end
-- ==== Proof.KernelIdealAggArr.lean ====
/-
  The aggregation pass's output array from its blocks, at the ideal instance.

  The output window hands point `t = 8 i + j` the block of rows `1024 i … 1024 i + 1023` (all 128 columns) and writes
  it back at `j = 7` only. If at every such point the block's buffer holds, at local row `r`, the output of global
  row `1024 i + r`, then each write-back writes its block of ONE function of the array's index, the eight
  write-backs cover the array, and the array ends holding that function.
-/
import proofs.«165293_j27951647162470_2_alg».proof.Proof.KernelIdealAggDefs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The output window's block at point `t = 8 i + j` is row block `i` of the one column block, decided over the grid. -/
theorem outIdx : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)

/-- WHAT A POINT WITH `j = 7` WRITES BACK is its block of the output function of the entry arrays: local row `r` of
    the block of point `t` is global row `1024 · (t / 8) + r`, and the block spans all 128 columns. -/
theorem flushed6_eq (c : Dev nD)
    (hblk : ∀ (t : Fin cfg1.N) (h1 : t.val % 8 = 7) (r : Fin 1024) (o : Fin 128),
      ((outsAt1 V c t.val t.isLt).1 : Vec Ideal S1024x128 .f32) (ix2 r o)
        = outK (adjV V c) (sfV V c) (dV V c) (wtV V c) (bV V c) (Cert.GCN.col (tb t) r) o)
    (t : Fin cfg1.N) (hf : (cfg1.win 6).flush t = true) :
    (dat1 (F := Ideal) V c).flushed 6 t = ((cfg1.win 6).blk t).view.read (Elt Ideal) (Gout V c) := by
  have h1 : t.val % 8 = 7 := (flush1_6 t).mp hf
  obtain ⟨q0, q1⟩ := outIdx t
  show (cfg1.win 6).cut (grid1.coords t) ((dat1 (F := Ideal) V c).after 6 t) = _
  rw [after1_6]
  show ((outsAt1 V c t.val t.isLt).1 : Vec Ideal S1024x128 .f32)
    = fun j : S1024x128.Idx => Gout V c (((cfg1.win 6).blk t).view.emb j)
  funext j
  obtain ⟨r, o, rfl⟩ : ∃ (r : Fin 1024) (o : Fin 128), j = ix2 r o := ⟨j 0, j 1, eq_ix2 j⟩
  rw [hblk t h1 r o]
  unfold Gout
  have e0 : (Cert.GCN.col (tb t) r).val = (((cfg1.win 6).blk t).view.emb (ix2 r o) 0).val := by
    show 1024 * (t.val / 8) + r.val = win1_6.index t (0 : Fin 2) * 1024 + 1 * r.val
    rw [q0]; omega
  have e1 : o.val = (((cfg1.win 6).blk t).view.emb (ix2 r o) 1).val := by
    show o.val = win1_6.index t (1 : Fin 2) * 128 + 1 * o.val
    rw [q1]; omega
  exact congrArg₂ (outK (adjV V c) (sfV V c) (dV V c) (wtV V c) (bV V c)) (Fin.ext e0) (Fin.ext e1)

/-- An index of the output array is in point `t`'s block iff each coordinate is in the block's range on its axis. -/
theorem mem_blk6 (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v5).slice (win1_6.rect t)).set ↔ _
  rw [View.set_slice_whole, Rect.mem_set_unit]
  exact Iff.rfl

/-- Row `i` of the output array is written back by the last point of its row block, `t = 8 · (i / 1024) + 7`. -/
theorem cover6 (i : S8192x128.Idx) :
    ∃ t : Fin cfg1.N, (cfg1.win 6).flush t = true ∧ i ∈ ((cfg1.win 6).blk t).view.set := by
  have hi0 : (i 0).val < 8192 := (i 0).isLt
  have hi1 : (i 1).val < 128 := (i 1).isLt
  have hN : cfg1.N = 64 := N_1
  have ht : 8 * ((i 0).val / 1024) + 7 < cfg1.N := by omega
  obtain ⟨q0, q1⟩ := outIdx ⟨8 * ((i 0).val / 1024) + 7, ht⟩
  have q0' : win1_6.index ⟨8 * ((i 0).val / 1024) + 7, ht⟩ (0 : Fin 2) = (8 * ((i 0).val / 1024) + 7) / 8 := q0
  refine ⟨⟨8 * ((i 0).val / 1024) + 7, ht⟩, (flush1_6 _).mpr (show (8 * ((i 0).val / 1024) + 7) % 8 = 7 by omega), ?_⟩
  rw [mem_blk6]
  intro a
  match a with
  | ⟨0, _⟩ =>
    show win1_6.index ⟨8 * ((i 0).val / 1024) + 7, ht⟩ (0 : Fin 2) * 1024 ≤ (i 0).val
      ∧ (i 0).val < win1_6.index ⟨8 * ((i 0).val / 1024) + 7, ht⟩ (0 : Fin 2) * 1024 + 1024
    rw [q0']; omega
  | ⟨1, _⟩ =>
    show win1_6.index ⟨8 * ((i 0).val / 1024) + 7, ht⟩ (1 : Fin 2) * 128 ≤ (i 1).val
      ∧ (i 1).val < win1_6.index ⟨8 * ((i 0).val / 1024) + 7, ht⟩ (1 : Fin 2) * 128 + 128
    rw [q1]; omega

/-- THE OUTPUT ARRAY after the pass: the output function of the entry arrays, once every block with `j = 7` holds its
    rows of it. -/
theorem agg_arr_of (c : Dev nD)
    (hblk : ∀ (t : Fin cfg1.N) (h1 : t.val % 8 = 7) (r : Fin 1024) (o : Fin 128),
      ((outsAt1 V c t.val t.isLt).1 : Vec Ideal S1024x128 .f32) (ix2 r o)
        = outK (adjV V c) (sfV V c) (dV V c) (wtV V c) (bV V c) (Cert.GCN.col (tb t) r) o) :
    (dat1 (F := Ideal) V c).arrAt 6 cfg1.N = Gout V c :=
  (dat1 (F := Ideal) V c).arrAt_eq_of_cover 6 (Gout V c) (fun t hf => flushed6_eq V c hblk t hf) cover6

end Cert.KernelIdeal.Fr

end
-- ==== Proof.Consts.lean ====
/-
  The float literals the two programs spell, as the extended reals their bit patterns denote at the ideal
  instance: one, plus infinity and minus one half (zero is the library's `Ideal.ofBits_zero_f32`).
-/
import Idealize.ShloMosaic.PureOps.Ideal

noncomputable section

namespace Cert.GCN.Consts

open Idealize.ShloMosaic

/-- `1.0` denotes `1`. -/
theorem ofBits_one : Ideal.ofBits .f32 0x3F800000#32 = 1 := by
  simp [Ideal.ofBits, Ideal.ieee, -EReal.coe_mul]; norm_num

/-- The pattern of `+inf` denotes `⊤`. -/
theorem ofBits_inf : Ideal.ofBits .f32 0x7F800000#32 = ⊤ := by
  simp [Ideal.ofBits, Ideal.ieee]

/-- `-0.5` denotes the real `-1/2`. -/
theorem ofBits_neg_half : Ideal.ofBits .f32 0xBF000000#32 = ((-(1 / 2) : ℝ) : EReal) := by
  simp [Ideal.ofBits, Ideal.ieee, -EReal.coe_mul]; norm_num

end Cert.GCN.Consts

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.PayDegree.lean ====
/-
  The degree kernel's stored value, read at an index, over the extended reals.

  For a block of 256 rows of the adjacency the kernel sums each row, lays the sums out as a column, adds one, takes
  the reciprocal square root d, and keeps d unless its absolute value equals plus infinity, storing zero then. On the
  extended reals the absolute value max d (-d) is plus infinity exactly at the two infinities, so the last step is
  the map that sends the two infinities to zero and keeps every other value; the row sum from the zero accumulator is
  the plain sum over the row.
-/
import proofs.«165293_j27951647162470_2_alg».proof.Proof.Gen.KernelIdeal.Skeleton
import proofs.«165293_j27951647162470_2_alg».proof.Proof.Spec
import proofs.«165293_j27951647162470_2_alg».proof.Proof.Consts
import proofs.«165293_j27951647162470_2_alg».proof.Proof.LibColumnLayout
import proofs.«165293_j27951647162470_2_alg».proof.Proof.LibLastAxisFolds
import Idealize.ShloMosaic.Lib.Pipeline.Value
import Idealize.ShloMosaic.Lib.ValueIdx
import Idealize.ShloMosaic.PureOps.Ideal.Laws

noncomputable section

namespace Cert.GCN.Pay

open Idealize.ShloMosaic Idealize.ShloMosaic.ValueIdx Cert.KernelIdeal Cert.KernelIdeal.Gen

/-- On one extended real: keeping `d` unless its absolute value `max d (-d)` equals plus infinity, and zero then, is
    sending the two infinities to zero. The absolute value of either infinity is plus infinity; that of a real is real. -/
theorem select_abs_inf (d : EReal) :
    Scalar.select (Ideal.cmp .oeq (max d (-d)) ⊤) (0 : EReal) d = Cert.GCN.dsel d := by
  unfold Cert.GCN.dsel Scalar.select Ideal.cmp
  induction d using EReal.rec with
  | bot => simp
  | top => simp
  | coe x =>
    have h : max (x : EReal) (-(x : EReal)) ≠ ⊤ := by
      rcases max_choice (x : EReal) (-(x : EReal)) with h | h <;> rw [h]
      · exact EReal.coe_ne_top x
      · rw [← EReal.coe_neg]; exact EReal.coe_ne_top _
    simp [h]

/-- The tail of the degree computation on a column `v`, read at an entry: select(|v| == +inf, 0, v) is `dsel`. -/
theorem degree_tail (v : FVec Ideal S256x1 .f32) (i : S256x1.Idx) :
    select (cmpf .oeq (absf v) (broadcast S256x1 (Scalar.ofBits (F := Ideal) .f32 0x7F800000#32)))
      (broadcast S256x1 (Scalar.ofBits (F := Ideal) .f32 0x00000000#32)) v i = Cert.GCN.dsel (v i) := by
  show Scalar.select (Ideal.cmp .oeq (max (v i) (-(v i))) (Ideal.ofBits .f32 0x7F800000#32))
    (Ideal.ofBits .f32 0x00000000#32) (v i) = _
  rw [Cert.GCN.Consts.ofBits_inf, Ideal.ofBits_zero_f32]
  exact select_abs_inf (v i)

/-- The degree kernel's stored value at row r: the reciprocal square root of the row sum plus one, the two infinities
    sent to zero. -/
theorem pay_degree (x : Vec Ideal S256x8192 .f32) (r : Fin 256) (u : Fin 1) :
    k0_pay1 (F := Ideal) x (ix2 r u) = Cert.GCN.dsel (Ideal.rsqrt ((∑ j : Fin 8192, x (ix2 r j)) + 1)) := by
  unfold k0_pay1
  refine (degree_tail _ _).trans (congrArg Cert.GCN.dsel ?_)
  -- the reciprocal square root and the sum with the splat of one are read entry by entry
  show Ideal.rsqrt ((shapeCast S256x1
    (multiReduction (F := Ideal) .add [1] S256 x 0x00000000#32 reduces_S256x8192_S256 (.inl rfl) rfl)
    shapeCasts_S256_S256x1 (ix2 r u) : EReal) + Ideal.ofBits .f32 0x3F800000#32) = _
  -- the vector of row sums laid out as a column reads the row's sum; the literal one
  rw [Idealize.ShloMosaic.ColumnLayout.shapeCast_a_a1_apply, Cert.Lib.LastAxisFolds.rowsum_apply,
    Cert.GCN.Consts.ofBits_one]

end Cert.GCN.Pay

end
-- ==== Proof.KernelIdealDegree.lean ====
/-
  The degree column after the degree pass, over the extended reals.

  Point `t` of the pass is handed rows `256 t … 256 t + 255` of the adjacency and leaves, in rows `256 t … 256 t + 255`
  of the degree column, the row-wise value of the rows it was handed: the reciprocal square root of the row sum plus
  one, the two infinities sent to zero.  Every block written back is therefore the block of ONE function of the
  adjacency — row `i` holds the degree scale of row `i` — and the 32 blocks cover the column (row `i` lies in the
  block of point `i / 256`), so after the pass the column holds that function.
-/
import proofs.«165293_j27951647162470_2_alg».proof.Proof.KernelIdealR0
import proofs.«165293_j27951647162470_2_alg».proof.Proof.PayDegree
import proofs.«165293_j27951647162470_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The zero offsets of a whole-block load or store, however spelt. -/
theorem zero_offsets0 : (![0, 0] : Fin 2 → Nat) = fun _ => 0 := funext fun a => by fin_cases a <;> rfl

/-- The body's one whole-block store of the row-wise value of its whole-block load leaves that value. -/
theorem out0_1_payload {F : FTy → Type} [FloatOps F] (x0 : Vec F S256x8192 .f32) : out0_1 x0 = k0_pay1 x0 := by
  unfold out0_1
  rw [View.canon_unit_zero zero_offsets0, View.ld_unit_zero (S := S256x8192) zero_offsets0]

/-- The index maps, decided over the grid: point `t` is handed block row `t` of the adjacency and writes block row
    `t` of the degree column; both block columns are `0`. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The whole degree column as ONE function of the adjacency: row `i` holds the degree scale of the adjacency's row `i`. -/
def degreeColumn (c : Dev nD) : Buf (Elt Ideal) ((c : Thread nD τ).loc main_v0) := fun k =>
  Cert.GCN.dinv (fun i j => (V c main_arg0 : S8192x8192.Idx → EReal) (ix2 i j)) ⟨(k 0).val, idx2_lt0 (n0 := 8192) (n1 := 1) k⟩

/-- The adjacency block handed to point `t`, read at row `r`, column `j`: the adjacency at row `256 t + r`. -/
theorem iblk0_0_apply (c : Dev nD) (t : Fin cfg0.N) (r : Fin 256) (j : Fin 8192) (hlt : 256 * t.val + r.val < 8192) :
    (iblk0 V c 0 t : S256x8192.Idx → EReal) (ix2 r j)
      = (V c main_arg0 : S8192x8192.Idx → EReal) (ix2 ⟨256 * t.val + r.val, hlt⟩ j) := by
  obtain ⟨e0, e1, -, -⟩ := index_facts0 t
  unfold iblk0
  rw [View.read_apply]
  show V c main_arg0 _ = V c main_arg0 _
  congr 1
  funext a
  apply Fin.ext
  match a with
  | ⟨0, _⟩ => show win0_0.index t 0 * 256 + 1 * r.val = 256 * t.val + r.val; rw [e0]; omega
  | ⟨1, _⟩ => show win0_0.index t 1 * 8192 + 1 * j.val = j.val; rw [e1]; omega

/-- The row-wise value of a block that holds rows `256 T …` of an array `A`, at row `r`: the degree scale of `A`'s row
    `256 T + r`. -/
theorem pay_row (x : Vec Ideal S256x8192 .f32) (A : S8192x8192.Idx → EReal) (T : Nat) (hT : T < 32)
    (hx : ∀ (r : Fin 256) (j : Fin 8192), x (ix2 r j) = A (ix2 ⟨256 * T + r.val, by have := r.isLt; omega⟩ j))
    (r : Fin 256) (u : Fin 1) :
    k0_pay1 (F := Ideal) x (ix2 r u)
      = Cert.GCN.dinv (fun i j => A (ix2 i j)) ⟨256 * T + r.val, by have := r.isLt; omega⟩ := by
  rw [Cert.GCN.Pay.pay_degree]
  unfold Cert.GCN.dinv Cert.GCN.rowsum
  simp only [hx]

/-- The same at any index `y` of the block, against any index `k` of the column whose row is `256 T + ` the row of `y`. -/
theorem pay_at (x : Vec Ideal S256x8192 .f32) (A : S8192x8192.Idx → EReal) (T : Nat) (hT : T < 32)
    (hx : ∀ (r : Fin 256) (j : Fin 8192), x (ix2 r j) = A (ix2 ⟨256 * T + r.val, by have := r.isLt; omega⟩ j))
    (y : S256x1.Idx) (k : S8192x1.Idx) (hk : (k 0).val = 256 * T + (y 0).val) :
    k0_pay1 (F := Ideal) x y
      = Cert.GCN.dinv (fun i j => A (ix2 i j)) ⟨(k 0).val, idx2_lt0 (n0 := 8192) (n1 := 1) k⟩ := by
  obtain ⟨r, u, rfl⟩ : ∃ (r : Fin 256) (u : Fin 1), y = ix2 r u := ⟨y 0, y 1, eq_ix2 y⟩
  rw [pay_row x A T hT hx]
  exact congrArg _ (Fin.ext hk.symm)

/-- WHAT POINT `t` WRITES BACK is block `t` of the degree column as a function of the adjacency. -/
theorem flushed0_1_eq (c : Dev nD) (t : Fin cfg0.N) :
    (dat0 (F := Ideal) V c).flushed 1 t = ((cfg0.win 1).blk t).view.read (Elt Ideal) (degreeColumn V c) := by
  show (cfg0.win 1).cut (grid0.coords t) ((dat0 V c).after 1 t) = _
  rw [after0_1, out0_1_payload]
  obtain ⟨-, -, e2, -⟩ := index_facts0 t
  have hT : t.val < 32 := lt_of_lt_of_eq t.isLt (show cfg0.N = 32 from N_0)
  funext y
  rw [View.read_apply]
  refine pay_at (iblk0 V c 0 t) (V c main_arg0) t.val hT (fun r j => iblk0_0_apply V c t r j _)
    ((cfg0.win 1).xinj (grid0.coords t) y) (((cfg0.win 1).blk t).view.emb y) ?_
  show win0_1.index t 0 * 256 + 1 * (y 0).val = 256 * t.val + (y 0).val
  rw [e2]; omega

/-- Every row of the column is in the block of the point `row / 256`. -/
theorem cover0_1_all (i : S8192x1.Idx) :
    ∃ t : Fin cfg0.N, (cfg0.win 1).flush t = true ∧ i ∈ ((cfg0.win 1).blk t).view.set := by
  have h0 : (i 0).val < 8192 := idx2_lt0 i
  have h1 : (i 1).val < 1 := idx2_lt1 i
  have hN : cfg0.N = 32 := N_0
  obtain ⟨t, ht⟩ : ∃ t : Fin cfg0.N, t.val = (i 0).val / 256 := ⟨⟨(i 0).val / 256, by rw [hN]; omega⟩, rfl⟩
  obtain ⟨-, -, e2, e3⟩ := index_facts0 t
  refine ⟨t, flush0_1 t, ?_⟩
  show i ∈ ((View.whole main_v0).slice (win0_1.rect t)).set
  rw [View.set_slice_whole, Rect.mem_set_unit]
  intro a
  match a with
  | ⟨0, _⟩ =>
    show win0_1.index t 0 * 256 ≤ (i 0).val ∧ (i 0).val < win0_1.index t 0 * 256 + 256
    rw [e2, ht]; omega
  | ⟨1, _⟩ =>
    show win0_1.index t 1 * 1 ≤ (i 1).val ∧ (i 1).val < win0_1.index t 1 * 1 + 1
    rw [e3]; omega

/-- THE DEGREE COLUMN AFTER THE PASS: row `i` holds the degree scale of the adjacency's row `i`. -/
theorem degree_arr (V : (c : Dev nD) → (b : Ref sig .tc) → Buf (Elt Ideal) ((c : Thread nD τ).loc b)) (c : Dev nD) (i : Fin 8192) (u : Fin 1) :
    ((dat0 (F := Ideal) V c).arrAt 1 cfg0.N : S8192x1.Idx → EReal) (ValueIdx.ix2 i u)
      = Cert.GCN.dinv (fun i j => (V c main_arg0 : S8192x8192.Idx → EReal) (ValueIdx.ix2 i j)) i :=
  congrFun ((dat0 (F := Ideal) V c).arrAt_eq_of_cover 1 (degreeColumn V c) (fun t _ => flushed0_1_eq V c t) cover0_1_all)
    (ix2 i u)

end Cert.KernelIdeal.Fr

end
-- ==== Proof.KernelIdealHost.lean ====
/-
  The four host operations between the two passes, read at an index, over the extended reals and from any contents
  `Win` of the core's buffers: the degree column broadcast along the rows and multiplied into the features gives the
  scaled features; the weights are transposed; the bias becomes a one-row matrix.
-/
import proofs.«165293_j27951647162470_2_alg».proof.Proof.Gen.KernelIdeal.Launch
import proofs.«165293_j27951647162470_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem

variable (Win : Valuation τ sig (Elt Ideal))

/-- The scaled features as the operations' term. -/
theorem host_v2_term :
    (StableHlo.after (hostOps1 (F := Ideal)) Win (Proc.devRef .tc main_v2) : S8192x128.Idx → EReal)
      = mulf (F := Ideal) (φ := .f32) (s := S8192x128) (broadcastInDim S8192x128 ![0, 1] bcast_S8192x1_S8192x128_0_1
          (Win (Proc.devRef .tc main_v0) : FVec Ideal S8192x1 .f32))
          (Win (Proc.devRef .tc main_arg1) : FVec Ideal S8192x128 .f32) := by
  dsimp only [hostOps1]
  after_results
  all_goals rfl

/-- The scaled features: row `j` of the features times the degree column's entry of row `j`. -/
theorem host_v2 (j : Fin 8192) (k : Fin 128) :
    (StableHlo.after (hostOps1 (F := Ideal)) Win (Proc.devRef .tc main_v2) : S8192x128.Idx → EReal) (ix2 j k)
      = HMul.hMul (α := EReal) (β := EReal) (γ := EReal)
          ((Win (Proc.devRef .tc main_v0) : S8192x1.Idx → EReal) (ix2 j 0))
          ((Win (Proc.devRef .tc main_arg1) : S8192x128.Idx → EReal) (ix2 j k)) := by
  rw [host_v2_term, mulf_apply]
  refine congrArg (fun x : EReal => x * ((Win (Proc.devRef .tc main_arg1) : S8192x128.Idx → EReal) (ix2 j k))) ?_
  exact broadcastInDim_apply _ bcast_S8192x1_S8192x128_0_1 _ (ix2 j k) (ix2 j 0) (fun a => match a with
    | ⟨0, _⟩ => by show j.val = if (8192 : Nat) = 1 then 0 else j.val; rw [if_neg (by decide)]
    | ⟨1, _⟩ => by show 0 = if (1 : Nat) = 1 then 0 else k.val; rw [if_pos rfl])

/-- The transposed weights as the operations' term. -/
theorem host_v3_term :
    (StableHlo.after (hostOps1 (F := Ideal)) Win (Proc.devRef .tc main_v3) : S128x128.Idx → EReal)
      = transpose S128x128 [1, 0] (Win (Proc.devRef .tc main_arg2) : S128x128.Idx → EReal)
          transposes_S128x128_S128x128_1_0 := by
  dsimp only [hostOps1]
  after_results
  all_goals rfl

/-- The transposed weights: entry `(k, o)` is the weights' entry `(o, k)`. -/
theorem host_v3 (k o : Fin 128) :
    (StableHlo.after (hostOps1 (F := Ideal)) Win (Proc.devRef .tc main_v3) : S128x128.Idx → EReal) (ix2 k o)
      = (Win (Proc.devRef .tc main_arg2) : S128x128.Idx → EReal) (ix2 o k) := by
  rw [host_v3_term]
  exact transpose_ix2_apply _ transposes_S128x128_S128x128_1_0 k o

/-- The bias as a one-row matrix, as the operations' term. -/
theorem host_v4_term :
    (StableHlo.after (hostOps1 (F := Ideal)) Win (Proc.devRef .tc main_v4) : S1x128.Idx → EReal)
      = shapeCast S1x128 (Win (Proc.devRef .tc main_arg3) : S128.Idx → EReal) shapeCasts_S128_S1x128 := by
  dsimp only [hostOps1]
  after_results
  all_goals rfl

/-- The bias as a one-row matrix: entry `(0, o)` is the bias's entry `o`. -/
theorem host_v4 (o : Fin 128) :
    (StableHlo.after (hostOps1 (F := Ideal)) Win (Proc.devRef .tc main_v4) : S1x128.Idx → EReal) (ix2 0 o)
      = (Win (Proc.devRef .tc main_arg3) : S128.Idx → EReal) (ix1 o) := by
  rw [host_v4_term]
  exact shapeCast_a_1a_apply _ shapeCasts_S128_S1x128 0 o

end Cert.KernelIdeal.Fr

end
-- ==== Proof.KernelIdealValue.lean ====
/-
  The program's result at the ideal instance, from the launch memory. The aggregation pass is entered with the
  adjacency as launched, the degree column the degree pass left (row `i`: `dinv` of the adjacency's row `i`), the
  scaled features the host multiplication made of it (`sfeat`), the weights transposed and the bias as a row; so
  the output array it leaves is the layer's output `Cert.GCN.out` of the four launch arrays, index by index.
-/
import proofs.«165293_j27951647162470_2_alg».proof.Proof.KernelIdealRun
import proofs.«165293_j27951647162470_2_alg».proof.Proof.KernelIdealAgg
import proofs.«165293_j27951647162470_2_alg».proof.Proof.KernelIdealAggArr
import proofs.«165293_j27951647162470_2_alg».proof.Proof.KernelIdealDegree
import proofs.«165293_j27951647162470_2_alg».proof.Proof.KernelIdealHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The four launch arrays, by coordinates. -/
abbrev A0 (c : Dev nD) : Fin 8192 → Fin 8192 → EReal := fun i j => (m ((c : Thread nD τ).loc main_arg0) : S8192x8192.Idx → Elt Ideal .f32) (ix2 i j)
abbrev A1 (c : Dev nD) : Fin 8192 → Fin 128 → EReal := fun j k => (m ((c : Thread nD τ).loc main_arg1) : S8192x128.Idx → Elt Ideal .f32) (ix2 j k)
abbrev A2 (c : Dev nD) : Fin 128 → Fin 128 → EReal := fun o k => (m ((c : Thread nD τ).loc main_arg2) : S128x128.Idx → Elt Ideal .f32) (ix2 o k)
abbrev A3 (c : Dev nD) : Fin 128 → EReal := fun o => (m ((c : Thread nD τ).loc main_arg3) : S128.Idx → Elt Ideal .f32) (ix1 o)

/-- The adjacency reaches the aggregation pass as launched. -/
theorem W2_arg0 (c : Dev nD) : W2 m c (Proc.devRef .tc main_arg0) = m ((c : Thread nD τ).loc main_arg0) :=
  (W2_of m c main_arg0 (by decide)).trans <| (W1_arr m c 0).trans (((dat0 (V0 m) c).arrAt_in 0 rfl _).trans (A_eq0 (V0 m) c 0))

theorem entry_adj (c : Dev nD) : adjV (V2 m) c = A0 m c := by
  funext i j
  show (W2 m c (Proc.devRef .tc main_arg0) : S8192x8192.Idx → Elt Ideal .f32) (ix2 i j) = _
  rw [W2_arg0]

/-- The degree column after the degree pass. -/
theorem W1_deg (c : Dev nD) (i : Fin 8192) :
    (W1 m c (Proc.devRef .tc main_v0) : S8192x1.Idx → Elt Ideal .f32) (ix2 i (0 : Fin 1)) = Cert.GCN.dinv (A0 m c) i := by
  have h := degree_arr (V0 m) c i (0 : Fin 1)
  rw [← W1_arr m c 1] at h
  exact h

theorem entry_d (c : Dev nD) : dV (V2 m) c = Cert.GCN.dinv (A0 m c) := by
  funext i
  show (W2 m c (Proc.devRef .tc main_v0) : S8192x1.Idx → Elt Ideal .f32) (ix2 i (0 : Fin 1)) = _
  rw [W2_of m c main_v0 (by decide)]
  exact W1_deg m c i

theorem entry_sf (c : Dev nD) : sfV (V2 m) c = Cert.GCN.sfeat (A0 m c) (A1 m c) := by
  funext j k
  show (StableHlo.after hostOps1 (W1 m c) (Proc.devRef .tc main_v2) : S8192x128.Idx → Elt Ideal .f32) (ix2 j k) = _
  rw [host_v2 (W1 m c) j k, W1_deg m c j, W1_of_ne m c main_arg1 (by decide)]
  rfl

theorem entry_wt (c : Dev nD) : wtV (V2 m) c = fun k o => A2 m c o k := by
  funext k o
  show (StableHlo.after hostOps1 (W1 m c) (Proc.devRef .tc main_v3) : S128x128.Idx → Elt Ideal .f32) (ix2 k o) = _
  rw [host_v3 (W1 m c) k o, W1_of_ne m c main_arg2 (by decide)]

theorem entry_b (c : Dev nD) : bV (V2 m) c = A3 m c := by
  funext o
  show (StableHlo.after hostOps1 (W1 m c) (Proc.devRef .tc main_v4) : S1x128.Idx → Elt Ideal .f32) (ix2 (0 : Fin 1) o) = _
  rw [host_v4 (W1 m c) o, W1_of_ne m c main_arg3 (by decide)]

/-- THE RESULT: the output array the aggregation pass leaves is the layer's output of the launch arrays. -/
theorem kernel_is_out (c : Dev nD) (i : Fin 8192) (o : Fin 128) :
    ((dat1 (F := Ideal) (V2 m) c).arrAt 6 cfg1.N : S8192x128.Idx → Elt Ideal .f32) (ix2 i o)
      = Cert.GCN.out (A0 m c) (A1 m c) (A2 m c) (A3 m c) i o := by
  rw [agg_arr_of (V2 m) c (outblk_val (V2 m) c)]
  show outK (adjV (V2 m) c) (sfV (V2 m) c) (dV (V2 m) c) (wtV (V2 m) c) (bV (V2 m) c) i o = _
  rw [entry_adj, entry_sf, entry_d, entry_wt, entry_b]
  exact outK_spec _ _ _ _ i o

end Cert.KernelIdeal.Fr

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.RefAlgebra.lean ====
/-
  The reference's arrangement of the layer, over plain functions, and its equality with the specification.

  The reference adds the identity to the adjacency, takes each row's sum, raises it to the power minus one half and
  sends an infinite result to zero; it scales the augmented adjacency by that number on the left and on the right and
  multiplies by the features.  On real entries: the row sum of the augmented adjacency is the row sum plus one; on
  every real number, the power minus one half with infinities sent to zero is the reciprocal square root with
  infinities sent to zero (both are the reciprocal of the square root on a positive number, and zero on zero and on a
  negative number); and the scaled product, being a finite sum of reals, splits into the row's own scaled features plus
  the adjacency row against the scaled features, the columns regrouped into eight blocks of 1024.
-/
import proofs.«165293_j27951647162470_2_alg».proof.Proof.Spec
import proofs.«165293_j27951647162470_2_alg».proof.Proof.LibSumBlocks
import Mathlib.Analysis.SpecialFunctions.Pow.Real
import Mathlib.Analysis.SpecialFunctions.Trigonometric.Basic
import Mathlib.Data.EReal.Operations

noncomputable section

open scoped BigOperators

namespace Cert.GCN.Ref

open Idealize.ShloMosaic Cert.GCN

/-- The identity matrix's entry, as a real. -/
def deltaR (i j : Fin 8192) : ℝ := if i = j then 1 else 0

/-- The identity matrix's entry. -/
def delta (i j : Fin 8192) : EReal := if i = j then 1 else 0

/-- An extended real whose absolute value is plus infinity is sent to zero, every other kept. -/
def rsel (x : EReal) : EReal := if max x (-x) = ⊤ then 0 else x

/-- The reference's degree scale of row `i`: the row sum of the augmented adjacency, from zero, to the power minus one
    half, an infinite result sent to zero. -/
def rdinv (adj : Fin 8192 → Fin 8192 → EReal) (i : Fin 8192) : EReal :=
  rsel (Ideal.pow (0 + ∑ j : Fin 8192, (adj i j + delta i j)) ((-(1 / 2) : ℝ) : EReal))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem delta_coe (i j : Fin 8192) : delta i j = ((deltaR i j : ℝ) : EReal) := by
  unfold delta deltaR; split_ifs <;> simp

/-- A row of the identity sums to one. -/
theorem sum_delta (i : Fin 8192) : ∑ j : Fin 8192, delta i j = 1 := by
  unfold delta
  rw [Finset.sum_ite_eq Finset.univ i (fun _ => (1 : EReal)), if_pos (Finset.mem_univ i)]

/-- The row sum of the augmented adjacency, from zero, is the row sum plus one. -/
theorem aug_rowsum (adj : Fin 8192 → Fin 8192 → EReal) (i : Fin 8192) :
    0 + ∑ j : Fin 8192, (adj i j + delta i j) = rowsum adj i + 1 := by
  rw [zero_add, Finset.sum_add_distrib, sum_delta, rowsum]

/-- The row sum plus one of a real adjacency is a real. -/
theorem rowsum_real (adj : Fin 8192 → Fin 8192 → EReal) (hadj : ∀ i j, ∃ r : ℝ, adj i j = (r : EReal)) (i : Fin 8192) :
    ∃ s : ℝ, rowsum adj i + 1 = (s : EReal) := by
  choose A hA using hadj
  refine ⟨∑ j : Fin 8192, A i j + 1, ?_⟩
  rw [rowsum, EReal.coe_add, coe_sum, EReal.coe_one]
  simp only [hA]

/-- A real is kept by the reference's selection … -/
theorem rsel_coe (x : ℝ) : rsel (x : EReal) = (x : EReal) := by
  unfold rsel
  rw [if_neg]
  rw [← EReal.coe_neg]
  rcases max_choice (x : EReal) ((-x : ℝ) : EReal) with h | h <;> rw [h] <;> exact EReal.coe_ne_top _

/-- … and by the specification's. -/
theorem dsel_coe (x : ℝ) : dsel (x : EReal) = (x : EReal) := by
  unfold dsel
  rw [if_neg]
  rintro (h | h)
  · exact EReal.coe_ne_top _ h
  · exact EReal.coe_ne_bot _ h

/-- A negative real to the power minus one half is zero: the cosine of minus a quarter turn. -/
theorem rpow_neg_half_of_neg {s : ℝ} (hs : s < 0) : s ^ (-(1 / 2) : ℝ) = 0 := by
  rw [Real.rpow_def_of_neg hs]
  have : (-(1 / 2) : ℝ) * Real.pi = -(Real.pi / 2) := by ring
  rw [this, Real.cos_neg, Real.cos_pi_div_two, mul_zero]

/-- A positive real to the power minus one half is the reciprocal of its square root. -/
theorem rpow_neg_half_of_pos {s : ℝ} (hs : 0 < s) : s ^ (-(1 / 2) : ℝ) = (Real.sqrt s)⁻¹ := by
  rw [Real.rpow_neg hs.le, Real.sqrt_eq_rpow]

/-- On every real: the power minus one half, infinities to zero, is the reciprocal square root, infinities to zero. -/
theorem rsel_pow_eq_dsel_rsqrt (s : ℝ) :
    rsel (Ideal.pow (s : EReal) ((-(1 / 2) : ℝ) : EReal)) = dsel (Ideal.rsqrt (s : EReal)) := by
  rw [Ideal.pow_coe_coe, Ideal.rsqrt_coe, rsel_coe, Real.rpow_eq_pow]
  rcases lt_trichotomy s 0 with hs | hs | hs
  · rw [if_pos hs, rpow_neg_half_of_neg hs]
    unfold dsel; rw [if_pos (Or.inr rfl)]; rfl
  · subst hs
    rw [if_neg (lt_irrefl _), if_pos rfl, Real.zero_rpow (by norm_num)]
    unfold dsel; rw [if_pos (Or.inl rfl)]; rfl
  · rw [if_neg (not_lt.2 hs.le), if_neg hs.ne', rpow_neg_half_of_pos hs, dsel_coe]

/-- The reference's degree scale is the specification's, on a real adjacency. -/
theorem rdinv_eq (adj : Fin 8192 → Fin 8192 → EReal) (hadj : ∀ i j, ∃ r : ℝ, adj i j = (r : EReal)) (i : Fin 8192) :
    rdinv adj i = dinv adj i := by
  obtain ⟨s, hs⟩ := rowsum_real adj hadj i
  rw [rdinv, dinv, aug_rowsum, hs, rsel_pow_eq_dsel_rsqrt]

/-- The specification's degree scale of a real adjacency is a real. -/
theorem dinv_real (adj : Fin 8192 → Fin 8192 → EReal) (hadj : ∀ i j, ∃ r : ℝ, adj i j = (r : EReal)) (i : Fin 8192) :
    ∃ d : ℝ, dinv adj i = (d : EReal) := by
  obtain ⟨s, hs⟩ := rowsum_real adj hadj i
  rw [dinv, hs, Ideal.rsqrt_coe]
  split_ifs
  · exact ⟨0, by unfold dsel; rw [if_pos (Or.inr rfl)]; rfl⟩
  · exact ⟨0, by unfold dsel; rw [if_pos (Or.inl rfl)]; rfl⟩
  · exact ⟨_, dsel_coe _⟩

/-- Column `1024·jb + jj` is offset `jj` of block `jb`. -/
theorem idx_eq_col (jb : Fin 8) (jj : Fin 1024) : SumBlocks.idx (show 8 * 1024 = 8192 from rfl) jb jj = col jb jj :=
  Fin.ext (by show jb.val * 1024 + jj.val = 1024 * jb.val + jj.val; rw [Nat.mul_comm])

/-- The law on reals: the doubly scaled augmented adjacency against the features is the row's scale times the row's own
    scaled features plus the adjacency row against the scaled features, block by block. -/
theorem agg_real (A : Fin 8192 → Fin 8192 → ℝ) (Fe : Fin 8192 → Fin 128 → ℝ) (D : Fin 8192 → ℝ) (i : Fin 8192) (k : Fin 128) :
    ∑ j : Fin 8192, ((D i * (A i j + deltaR i j)) * D j) * Fe j k
      = D i * (D i * Fe i k + ∑ jb : Fin 8, ∑ jj : Fin 1024, A i (col jb jj) * (D (col jb jj) * Fe (col jb jj) k)) := by
  have h1 : ∀ j : Fin 8192, ((D i * (A i j + deltaR i j)) * D j) * Fe j k
      = D i * (A i j * (D j * Fe j k)) + (if i = j then D i * (D j * Fe j k) else 0) := by
    intro j
    unfold deltaR
    split_ifs <;> ring
  rw [Finset.sum_congr rfl (fun j _ => h1 j), Finset.sum_add_distrib, ← Finset.mul_sum,
    Finset.sum_ite_eq Finset.univ i (fun j => D i * (D j * Fe j k)), if_pos (Finset.mem_univ i),
    SumBlocks.sum_eq (show 8 * 1024 = 8192 from rfl) (fun j => A i j * (D j * Fe j k))]
  simp only [idx_eq_col]
  ring

/-- THE LAW: on a real adjacency and real features, the reference's doubly scaled augmented adjacency against the features
    is the specification's row scale times its aggregate. -/
theorem agg_eq (adj : Fin 8192 → Fin 8192 → EReal) (feat : Fin 8192 → Fin 128 → EReal)
    (hadj : ∀ i j, ∃ r : ℝ, adj i j = (r : EReal)) (hfeat : ∀ j k, ∃ r : ℝ, feat j k = (r : EReal)) (i : Fin 8192) (k : Fin 128) :
    ∑ j : Fin 8192, ((rdinv adj i * (adj i j + delta i j)) * rdinv adj j) * feat j k = dinv adj i * acc adj feat i k := by
  simp only [rdinv_eq adj hadj]
  choose D hD using dinv_real adj hadj
  choose A hA using hadj
  choose Fe hF using hfeat
  have hl : ∀ j : Fin 8192, ((dinv adj i * (adj i j + delta i j)) * dinv adj j) * feat j k
      = (((((D i * (A i j + deltaR i j)) * D j) * Fe j k : ℝ)) : EReal) := by
    intro j
    rw [hD, hD, hA, hF, delta_coe, EReal.coe_mul, EReal.coe_mul, EReal.coe_mul, EReal.coe_add]
  rw [Finset.sum_congr rfl (fun j _ => hl j), ← coe_sum, agg_real]
  unfold acc sfeat
  rw [EReal.coe_mul, EReal.coe_add, EReal.coe_mul, coe_sum]
  simp only [coe_sum, EReal.coe_mul, hD, hA, hF]

/-- The reference's result at row `i`, feature `o`, spelt over plain functions, is the specification's. -/
theorem out_eq (adj : Fin 8192 → Fin 8192 → EReal) (feat : Fin 8192 → Fin 128 → EReal) (W : Fin 128 → Fin 128 → EReal)
    (b : Fin 128 → EReal) (hadj : ∀ i j, ∃ r : ℝ, adj i j = (r : EReal)) (hfeat : ∀ j k, ∃ r : ℝ, feat j k = (r : EReal))
    (i : Fin 8192) (o : Fin 128) :
    max ((∑ k : Fin 128, (∑ j : Fin 8192, ((rdinv adj i * (adj i j + delta i j)) * rdinv adj j) * feat j k) * W o k) + b o) 0
      = out adj feat W b i o := by
  simp only [agg_eq adj feat hadj hfeat]
  rfl

end Cert.GCN.Ref

end
-- ==== Proof.RefIsSpec.lean ====
/-
  The reference program, read index by index, is the specification.

  Each stage of the reference is read at an index built from its coordinates: the identity matrix is the comparison of
  the row number with the column number; the augmented adjacency is the adjacency plus the identity; the degree scale
  is the row sum of the augmented adjacency, from zero, to the power minus one half, an infinite result sent to zero;
  the normalised adjacency is the augmented one scaled by the degree scale of its row and of its column; the two
  products are sums over the contracted index, the second against the transposed weights; the bias is added along the
  rows and the result is clamped below at zero.  The arrangement so read is the specification's by the law of the
  algebra module, which needs the adjacency and the features to be real.
-/
import proofs.«165293_j27951647162470_2_alg».proof.Proof.Gen.ReferenceIdeal.Read
import proofs.«165293_j27951647162470_2_alg».proof.Proof.RefAlgebra
import proofs.«165293_j27951647162470_2_alg».proof.Proof.Consts

noncomputable section

open scoped BigOperators

namespace Cert.GCN.Ref

open Idealize.ShloMosaic Idealize.ShloMosaic.ValueIdx Cert.ReferenceIdeal Cert.ReferenceIdeal.Read

/-! ## Words -/

/-- Two numbers below 8192 are the same 32-bit word exactly when they are the same number. -/
theorem ofNat_inj (i j : Fin 8192) : BitVec.ofNat 32 i.val = BitVec.ofNat 32 j.val ↔ i = j := by
  constructor
  · intro h
    have e := congrArg BitVec.toNat h
    rw [BitVec.toNat_ofNat, BitVec.toNat_ofNat] at e
    have hi := i.isLt
    have hj := j.isLt
    exact Fin.ext (by omega)
  · rintro rfl; rfl

/-- The identity matrix's entry as the reference computes it: the bit of "row number plus zero equals column number",
    read as an unsigned integer. -/
theorem eye_word (i j : Fin 8192) :
    FloatOps.uitofp (F := Ideal) .f32 (IntOp.cmpi .eq (IntOp.addi (BitVec.ofNat 32 i.val) 0#32) (BitVec.ofNat 32 j.val))
      = delta i j := by
  show (((IntOp.cmpi .eq (IntOp.addi (BitVec.ofNat 32 i.val) 0#32) (BitVec.ofNat 32 j.val)).toNat : ℝ) : EReal) = delta i j
  unfold delta IntOp.cmpi IntOp.addi
  by_cases h : i = j
  · subst h; simp
  · have h' : ¬ BitVec.ofNat 32 i.val = BitVec.ofNat 32 j.val := fun e => h ((ofNat_inj i j).1 e)
    simp [h, h']

/-- The reference's selection: where the absolute value equals plus infinity, zero; elsewhere the value. -/
theorem select_eq_rsel (x : EReal) :
    Scalar.select (FloatOps.cmpf (F := Ideal) (φ := .f32) .oeq (FloatOps.hostAbsf (F := Ideal) (φ := .f32) x)
        (FloatOps.ofBits (F := Ideal) .f32 0x7F800000#32)) (FloatOps.ofBits (F := Ideal) .f32 0x00000000#32) x = rsel x := by
  show Scalar.select (Ideal.cmp .oeq (max x (-x)) (Ideal.ofBits .f32 0x7F800000#32)) (Ideal.ofBits .f32 0x00000000#32) x = rsel x
  rw [Cert.GCN.Consts.ofBits_inf, Ideal.ofBits_zero_f32]
  unfold rsel Scalar.select Ideal.cmp
  by_cases h : max x (-x) = ⊤
  · simp [h]
  · simp [h]

/-! ## Indices -/

theorem idx_v7 (i k : Fin 8192) : idx_main_v7 (ix1 i) k = ix2 i k :=
  funext fun a => Fin.ext (by match a with | ⟨0, _⟩ => rfl | ⟨1, _⟩ => rfl)

theorem idx_v13 (i j : Fin 8192) : idx_main_v12 (idx_main_v13 (ix2 i j)) = ix1 i :=
  funext fun a => Fin.ext (by match a with | ⟨0, _⟩ => rfl)

theorem idx_v16 (i j : Fin 8192) : idx_main_v15 (idx_main_v16 (ix2 i j)) = ix1 j :=
  funext fun a => Fin.ext (by match a with | ⟨0, _⟩ => rfl)

theorem lidx_v18 (i : Fin 8192) (k : Fin 128) (j : Fin 8192) : lidx_main_v18 (ix2 i k) j = ix2 i j :=
  funext fun a => Fin.ext (by match a with | ⟨0, _⟩ => rfl | ⟨1, _⟩ => rfl)

theorem ridx_v18 (i : Fin 8192) (k : Fin 128) (j : Fin 8192) : ridx_main_v18 (ix2 i k) j = ix2 j k :=
  funext fun a => Fin.ext (by match a with | ⟨0, _⟩ => rfl | ⟨1, _⟩ => rfl)

theorem lidx_v20 (i : Fin 8192) (o k : Fin 128) : lidx_main_v20 (ix2 i o) k = ix2 i k :=
  funext fun a => Fin.ext (by match a with | ⟨0, _⟩ => rfl | ⟨1, _⟩ => rfl)

theorem ridx_v20 (i : Fin 8192) (o k : Fin 128) : idx_main_v19 (ridx_main_v20 (ix2 i o) k) = ix2 o k :=
  funext fun a => Fin.ext (by match a with | ⟨0, _⟩ => rfl | ⟨1, _⟩ => rfl)

theorem idx_v22 (i : Fin 8192) (o : Fin 128) : idx_main_v21 (idx_main_v22 (ix2 i o)) = ix1 o :=
  funext fun a => Fin.ext (by match a with | ⟨0, _⟩ => rfl)

/-! ## The stages at an index -/

variable (a0 : (⟨S8192x8192, .f32⟩ : BufTy).Contents (Elt Ideal)) (a1 : (⟨S8192x128, .f32⟩ : BufTy).Contents (Elt Ideal))
  (a2 : (⟨S128x128, .f32⟩ : BufTy).Contents (Elt Ideal)) (a3 : (⟨S128, .f32⟩ : BufTy).Contents (Elt Ideal))

/-- The identity matrix. -/
theorem v5_at (i j : Fin 8192) : val_main_v5 (F := Ideal) (ix2 i j) = delta i j := by
  rw [val_main_v5_apply, val_main_v4_apply, val_main_v3_apply, val_main_v0_apply, val_main_v2_apply, val_main_c_apply,
    val_main_v1_apply]
  exact eye_word i j

/-- The augmented adjacency. -/
theorem v6_at (i j : Fin 8192) : val_main_v6 (F := Ideal) a0 (ix2 i j) = a0 (ix2 i j) + delta i j := by
  rw [val_main_v6_apply, v5_at]; rfl

/-- The degree scale. -/
theorem v11_at (i : Fin 8192) : val_main_v11 (F := Ideal) a0 (ix1 i) = rdinv (fun i j => a0 (ix2 i j)) i := by
  rw [val_main_v11_apply, val_main_v10_apply, val_main_call0_v0_apply, val_main_call0_v1_apply, val_main_call0_cst_apply,
    val_main_call1_v1_apply, val_main_call1_v0_apply, val_main_cst_1_apply, select_eq_rsel, val_main_v9_apply,
    val_main_v8_apply, val_main_cst_0_apply, val_main_v7_apply, val_main_cst_apply]
  unfold rdinv
  show rsel (Ideal.pow (Ideal.ofBits .f32 0x00000000#32 + _) (Ideal.ofBits .f32 0xBF000000#32)) = _
  rw [Ideal.ofBits_zero_f32, Cert.GCN.Consts.ofBits_neg_half]
  refine congrArg (fun s => rsel (Ideal.pow (0 + s) _)) (Finset.sum_congr rfl fun k _ => ?_)
  rw [idx_v7, v6_at]

/-- The normalised adjacency. -/
theorem v17_at (i j : Fin 8192) :
    val_main_v17 (F := Ideal) a0 (ix2 i j)
      = (rdinv (fun i j => a0 (ix2 i j)) i * (a0 (ix2 i j) + delta i j)) * rdinv (fun i j => a0 (ix2 i j)) j := by
  rw [val_main_v17_apply, val_main_v14_apply, val_main_v13_apply, val_main_v12_apply, idx_v13, val_main_v16_apply,
    val_main_v15_apply, idx_v16, v11_at, v11_at, v6_at]
  rfl

/-- The first product. -/
theorem v18_at (i : Fin 8192) (k : Fin 128) :
    val_main_v18 (F := Ideal) a0 a1 (ix2 i k)
      = ∑ j : Fin 8192, ((rdinv (fun i j => a0 (ix2 i j)) i * (a0 (ix2 i j) + delta i j)) * rdinv (fun i j => a0 (ix2 i j)) j)
          * a1 (ix2 j k) := by
  rw [val_main_v18_apply]
  refine Finset.sum_congr rfl fun j _ => ?_
  rw [lidx_v18, ridx_v18, v17_at]

/-- The reference's result before the law. -/
theorem v24_at (i : Fin 8192) (o : Fin 128) :
    val_main_v24 (F := Ideal) a0 a1 a2 a3 (ix2 i o)
      = max ((∑ k : Fin 128, (∑ j : Fin 8192, ((rdinv (fun i j => a0 (ix2 i j)) i * (a0 (ix2 i j) + delta i j))
          * rdinv (fun i j => a0 (ix2 i j)) j) * a1 (ix2 j k)) * a2 (ix2 o k)) + a3 (ix1 o)) 0 := by
  rw [val_main_v24_apply, val_main_call2_v0_apply, val_main_call2_cst_apply, val_main_v23_apply, val_main_v22_apply,
    val_main_v21_apply, idx_v22, val_main_v20_apply]
  show max ((∑ k : Fin 128, _) + a3 (ix1 o)) (Ideal.ofBits .f32 0x00000000#32) = _
  rw [Ideal.ofBits_zero_f32]
  refine congrArg (fun s => max (s + a3 (ix1 o)) 0) (Finset.sum_congr rfl fun k _ => ?_)
  rw [lidx_v20, v18_at, val_main_v19_apply, ridx_v20]

/-- THE REFERENCE IS THE SPECIFICATION, on a real adjacency and real features. -/
theorem reference_is_out
    (h0 : ∀ i, ∃ r : ℝ, a0 i = (r : EReal)) (h1 : ∀ i, ∃ r : ℝ, a1 i = (r : EReal))
    (i : Fin 8192) (o : Fin 128) :
    Cert.ReferenceIdeal.Read.val_main_v24 (F := Ideal) a0 a1 a2 a3 (ValueIdx.ix2 i o)
      = Cert.GCN.out (fun i j => a0 (ValueIdx.ix2 i j)) (fun j k => a1 (ValueIdx.ix2 j k))
          (fun o k => a2 (ValueIdx.ix2 o k)) (fun o => a3 (ValueIdx.ix1 o)) i o := by
  rw [v24_at]
  exact out_eq (fun i j => a0 (ix2 i j)) (fun j k => a1 (ix2 j k)) (fun o k => a2 (ix2 o k)) (fun o => a3 (ix1 o))
    (fun i j => h0 _) (fun j k => h1 _) i o

end Cert.GCN.Ref

end
-- ==== Proof.Finite.lean ====
/-
  The finiteness precondition, read back: when its predicate — for each input, every entry's
  absolute value strictly below plus infinity, the four answers and-ed — returns the bit one, every
  entry of the adjacency and of the features is a real number.
-/
import proofs.«165293_j27951647162470_2_alg».proof.Proof.Gen.Pre_finite_inputs
import proofs.«165293_j27951647162470_2_alg».proof.Proof.Consts
import Idealize.ShloMosaic.Lib.ReduceAll
import Idealize.ShloMosaic.Lib.ValueIdx

noncomputable section

namespace Cert.GCN.Fin

open Idealize.ShloMosaic

/-- The scalar shape has one index. -/
instance : Subsingleton Cert.Pre_finite_inputs.S_.Idx := ⟨fun a b => funext fun d => d.elim0⟩

/-- An extended real whose absolute value compares strictly below plus infinity is a real: the two
    infinities have absolute value plus infinity, which is not below itself. -/
theorem real_of_abs_lt (x : EReal)
    (h : Ideal.cmp .olt (max x (-x)) (Ideal.ofBits .f32 0x7F800000#32) = 1#1) : ∃ r : ℝ, x = (r : EReal) := by
  rw [Cert.GCN.Consts.ofBits_inf] at h
  induction x using EReal.rec with
  | bot => simp [Ideal.cmp] at h
  | coe r => exact ⟨r, rfl⟩
  | top => simp [Ideal.cmp] at h

/-- The precondition gives: every entry of the adjacency and every entry of the features is a real. -/
theorem finite_of_pre [Cert.Pre_finite_inputs.Facts]
    (a0 : FVec Ideal Cert.Pre_finite_inputs.S8192x8192 .f32) (a1 : FVec Ideal Cert.Pre_finite_inputs.S8192x128 .f32)
    (a2 : FVec Ideal Cert.Pre_finite_inputs.S128x128 .f32) (a3 : FVec Ideal Cert.Pre_finite_inputs.S128 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn, Cert.Pre_finite_inputs.fn_part1] at e
  have e1 : IntOp.andi (IntOp.andi (IntOp.andi _ _) _) _ = 1#1 := e
  obtain ⟨e2, -⟩ := IntOp.andi_eq_one.1 e1
  obtain ⟨e3, -⟩ := IntOp.andi_eq_one.1 e2
  obtain ⟨h0, h1⟩ := IntOp.andi_eq_one.1 e3
  refine ⟨fun i => ?_, fun i => ?_⟩
  · exact real_of_abs_lt (a0 i) (Host.reduce_andi_all _ _ _ _ _ h0 i)
  · exact real_of_abs_lt (a1 i) (Host.reduce_andi_all _ _ _ _ _ h1 i)

end Cert.GCN.Fin

end
-- ==== Proof.lean ====
/-
  The certificate's five claims.

  Both programs, at the ideal instance, compute one graph-convolution layer: with `d_i = s(rsqrt(Σ_j adj_ij + 1))`
  (`s` sends the infinities to zero), the output is `relu((d_i · (d_i·x_i + Σ_j adj_ij · d_j·x_j)) Wᵀ + b)`. The kernel
  computes the degree column in a first grid, scales the features on the host, and accumulates the adjacency
  against the scaled features tile by tile in a second grid, the identity's term folded into the accumulator's
  start; the reference adds the identity to the adjacency, scales rows and columns, and multiplies. The two agree
  on every finite input: the row sum of `adj + I` is the row sum plus one; `x ↦ x^(-1/2)` with infinities sent to
  zero and `rsqrt` with infinities sent to zero agree on every real (both are `0` at and below zero); and the
  finite factor `d_i` distributes over the row's sum. The frames: each of the kernel's two grids runs under the
  pipeline's rules from proof data that name what every point leaves (the scaled features, read through two
  windows, held half by each), the host operations between them by the host rule; the reference is a host program.
-/
import proofs.«165293_j27951647162470_2_alg».proof.Defs
import proofs.«165293_j27951647162470_2_alg».proof.Proof.Gen.Kernel
import proofs.«165293_j27951647162470_2_alg».proof.Proof.Gen.KernelIdeal
import proofs.«165293_j27951647162470_2_alg».proof.Proof.Gen.ReferenceIdeal
import proofs.«165293_j27951647162470_2_alg».proof.Proof.Gen.Pre_finite_inputs
import proofs.«165293_j27951647162470_2_alg».proof.Proof.Gen.ReferenceIdeal.Run
import proofs.«165293_j27951647162470_2_alg».proof.Proof.Gen.ReferenceIdeal.Read
import proofs.«165293_j27951647162470_2_alg».proof.Proof.KernelRun
import proofs.«165293_j27951647162470_2_alg».proof.Proof.KernelIdealValue
import proofs.«165293_j27951647162470_2_alg».proof.Proof.RefIsSpec
import proofs.«165293_j27951647162470_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Fr.frame m ρ

/-- So does the kernel read at the ideal instance. -/
theorem frame_ki : Cert.frame_KernelIdeal := fun m ρ _ => Cert.KernelIdeal.Fr.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array and the reference's are one function of the arguments: the
    layer's output, index by index, the arguments being finite. -/
theorem algebraic : Cert.algebraic_KernelIdeal_ReferenceIdeal := by
  intro m ρ m' ρ' hpre hagree
  refine ⟨fun c => (Cert.KernelIdeal.Fr.dat1 (F := Ideal) (Cert.KernelIdeal.Fr.V2 m) c).arrAt 6 Cert.KernelIdeal.cfg1.N,
    Cert.KernelIdeal.Fr.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  obtain ⟨hf0, hf1⟩ := Cert.GCN.Fin.finite_of_pre _ _ _ _ (hpre c)
  funext idx
  obtain ⟨i, o, rfl⟩ : ∃ (i : Fin 8192) (o : Fin 128), idx = ValueIdx.ix2 i o := ⟨idx 0, idx 1, ValueIdx.eq_ix2 idx⟩
  exact (Cert.GCN.Ref.reference_is_out _ _ _ _ hf0 hf1 i o).trans (Cert.KernelIdeal.Fr.kernel_is_out m c i o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
